-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S128x64 .f32) (main_arg3 : FVec F S64 .f32) (main_arg4 : FVec F S64x32 .f32) (main_arg5 : FVec F S32 .f32) (main_arg6 : FVec F S32x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S700000x64 : Shape := ⟨2, ![700000, 64]⟩
abbrev S1x64 : Shape := ⟨2, ![1, 64]⟩
abbrev S100000x32 : Shape := ⟨2, ![100000, 32]⟩
abbrev S4000x32 : Shape := ⟨2, ![4000, 32]⟩
abbrev S700000x32 : Shape := ⟨2, ![700000, 32]⟩
abbrev S1x32 : Shape := ⟨2, ![1, 32]⟩
abbrev S1x1 : Shape := ⟨2, ![1, 1]⟩

abbrev nBuf : Space → Nat
  | .hbm => 64
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S100000, .i32⟩
  | .hbm, ⟨9, _⟩ => ⟨S1x600000, .i32⟩
  | .hbm, ⟨10, _⟩ => ⟨S600000, .i32⟩
  | .hbm, ⟨11, _⟩ => ⟨S700000, .i32⟩
  | .hbm, ⟨12, _⟩ => ⟨S1x600000, .i32⟩
  | .hbm, ⟨13, _⟩ => ⟨S600000, .i32⟩
  | .hbm, ⟨14, _⟩ => ⟨S700000, .i32⟩
  | .hbm, ⟨15, _⟩ => ⟨S_, .f32⟩
  | .hbm, ⟨16, _⟩ => ⟨S700000, .f32⟩
  | .hbm, ⟨17, _⟩ => ⟨S_, .f32⟩
  | .hbm, ⟨18, _⟩ => ⟨S100000, .f32⟩
  | .hbm, ⟨19, _⟩ => ⟨S700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .bf16⟩
  | .hbm, ⟨31, _⟩ => ⟨S_, .i32⟩
  | .hbm, ⟨32, _⟩ => ⟨S700000, .i32⟩
  | .hbm, ⟨33, _⟩ => ⟨S700000, .i1⟩
  | .hbm, ⟨34, _⟩ => ⟨S_, .i32⟩
  | .hbm, ⟨35, _⟩ => ⟨S700000, .i32⟩
  | .hbm, ⟨36, _⟩ => ⟨S700000, .i32⟩
  | .hbm, ⟨37, _⟩ => ⟨S700000, .i32⟩
  | .hbm, ⟨38, _⟩ => ⟨S700000x1, .i32⟩
  | .hbm, ⟨39, _⟩ => ⟨S700000x64, .bf16⟩
  | .hbm, ⟨40, _⟩ => ⟨S700000x64, .f32⟩
  | .hbm, ⟨41, _⟩ => ⟨S_, .f32⟩
  | .hbm, ⟨42, _⟩ => ⟨S100000x64, .f32⟩
  | .hbm, ⟨43, _⟩ => ⟨S700000x1, .i32⟩
  | .hbm, ⟨44, _⟩ => ⟨S100000x64, .f32⟩
  | .hbm, ⟨45, _⟩ => ⟨S1x64, .f32⟩
  | .hbm, ⟨46, _⟩ => ⟨S100000x32, .bf16⟩
  | .hbm, ⟨47, _⟩ => ⟨S_, .i32⟩
  | .hbm, ⟨48, _⟩ => ⟨S700000, .i32⟩
  | .hbm, ⟨49, _⟩ => ⟨S700000, .i1⟩
  | .hbm, ⟨50, _⟩ => ⟨S_, .i32⟩
  | .hbm, ⟨51, _⟩ => ⟨S700000, .i32⟩
  | .hbm, ⟨52, _⟩ => ⟨S700000, .i32⟩
  | .hbm, ⟨53, _⟩ => ⟨S700000, .i32⟩
  | .hbm, ⟨54, _⟩ => ⟨S700000x1, .i32⟩
  | .hbm, ⟨55, _⟩ => ⟨S700000x32, .bf16⟩
  | .hbm, ⟨56, _⟩ => ⟨S700000x32, .f32⟩
  | .hbm, ⟨57, _⟩ => ⟨S_, .f32⟩
  | .hbm, ⟨58, _⟩ => ⟨S100000x32, .f32⟩
  | .hbm, ⟨59, _⟩ => ⟨S700000x1, .i32⟩
  | .hbm, ⟨60, _⟩ => ⟨S100000x32, .f32⟩
  | .hbm, ⟨61, _⟩ => ⟨S1x32, .f32⟩
  | .hbm, ⟨62, _⟩ => ⟨S1x1, .f32⟩
  | .hbm, ⟨63, _⟩ => ⟨S100000x1, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x1, .f32⟩
  | .local _ .vmem, ⟨4, _⟩ => ⟨S4000x1, .f32⟩
  | .local _ .vmem, ⟨5, _⟩ => ⟨S4000x64, .bf16⟩
  | .local _ .vmem, ⟨6, _⟩ => ⟨S4000x64, .bf16⟩
  | .local _ .vmem, ⟨7, _⟩ => ⟨S4000x64, .f32⟩
  | .local _ .vmem, ⟨8, _⟩ => ⟨S4000x64, .f32⟩
  | .local _ .vmem, ⟨9, _⟩ => ⟨S4000x1, .f32⟩
  | .local _ .vmem, ⟨10, _⟩ => ⟨S4000x1, .f32⟩
  | .local _ .vmem, ⟨11, _⟩ => ⟨S1x64, .f32⟩
  | .local _ .vmem, ⟨12, _⟩ => ⟨S64x32, .f32⟩
  | .local _ .vmem, ⟨13, _⟩ => ⟨S4000x32, .bf16⟩
  | .local _ .vmem, ⟨14, _⟩ => ⟨S4000x32, .bf16⟩
  | .local _ .vmem, ⟨15, _⟩ => ⟨S4000x32, .f32⟩
  | .local _ .vmem, ⟨16, _⟩ => ⟨S4000x32, .f32⟩
  | .local _ .vmem, ⟨17, _⟩ => ⟨S4000x1, .f32⟩
  | .local _ .vmem, ⟨18, _⟩ => ⟨S4000x1, .f32⟩
  | .local _ .vmem, ⟨19, _⟩ => ⟨S1x32, .f32⟩
  | .local _ .vmem, ⟨20, _⟩ => ⟨S32x1, .f32⟩
  | .local _ .vmem, ⟨21, _⟩ => ⟨S1x1, .f32⟩
  | .local _ .vmem, ⟨22, _⟩ => ⟨S4000x1, .f32⟩
  | .local _ .vmem, ⟨23, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  shapeCasts_S64_S1x64 : S64.ShapeCasts S1x64
  shapeCasts_S4000x64_S4000x64 : S4000x64.ShapeCasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  broadcasts_S4000x1_S4000x32 : S4000x1.Broadcasts S4000x32
  inb_S4000x32_S4000x32_0_0 : ∀ a, (![0, 0] : Fin 2 → Nat) a + S4000x32.size a ≤ S4000x32.size a
  h_S4000x32 : 0 < S4000x32.numel
  packedbf16_S4000x32_S4000x32_0_0 : (Rect.unit (s := S4000x32) ![0, 0] S4000x32.size inb_S4000x32_S4000x32_0_0).PackedRows (EltTy.packing .bf16)
  bcast_S_S100000x32 : S_.BroadcastsInDim S100000x32 (![] : Fin 0 → Fin S100000x32.rank)
  shapeCasts_S32_S1x32 : S32.ShapeCasts S1x32
  shapeCasts_S1_S1x1 : S1.ShapeCasts S1x1
  shapeCasts_S4000x32_S4000x32 : S4000x32.ShapeCasts S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S700000x1_S700000_n_0_0_1_wf : ScatterDims.WF S100000 S700000x1 S700000 [] [0] [0] 1
  dot_S4000x128_S128x64_S4000x64_1_0_0_1_n_n_wf : DotDims.WF S4000x128 S128x64 S4000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S4000x64_S64x32_S4000x32_1_0_0_1_n_n_wf : DotDims.WF S4000x64 S64x32 S4000x32 [1] [0] [0] [1] [] []
  gather_S100000x32_S700000x1_S700000x32_1_0_n_n_0_1_132_wf : GatherDims.WF S100000x32 S700000x1 S700000x32 [1] [0] [] [0] [] 1 ![1, 32]
  scatter_S100000x32_S700000x1_S700000x32_1_0_0_1_wf : ScatterDims.WF S100000x32 S700000x1 S700000x32 [1] [0] [0] 1
  dot_S4000x32_S32x1_S4000x1_1_0_0_1_n_n_wf : DotDims.WF S4000x32 S32x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .bf16 = 32 ∨ (Rect.block (s := S100000x64) S4000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x32.size a ≤ S100000x32.size a
  hwx1_4 : ∀ i : grid1.Coords, EltTy.bits .bf16 = 32 ∨ (Rect.block (s := S100000x32) S4000x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x32.size a ≤ S100000x32.size a
  hwx2_0 : ∀ i : grid2.Coords, EltTy.bits .f32 = 32 ∨ (Rect.block (s := S100000x32) S4000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x1.size a ≤ S32x1.size a
  hwx2_3 : ∀ i : grid2.Coords, EltTy.bits .f32 = 32 ∨ (Rect.block (s := S32x1) S32x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def gather_S100000x32_S700000x1_S700000x32_1_0_n_n_0_1_132 : GatherDims S100000x32 S700000x1 S700000x32 where
  offsetDims := [1]
  collapsedSliceDims := [0]
  operandBatchingDims := []
  startIndicesBatchingDims := []
  startIndexMap := [0]
  indexVectorDim := 1
  sliceSizes := ![1, 32]
  wf := gather_S100000x32_S700000x1_S700000x32_1_0_n_n_0_1_132_wf
def scatter_S100000x32_S700000x1_S700000x32_1_0_0_1 : ScatterDims S100000x32 S700000x1 S700000x32 where
  updateWindowDims := [1]
  insertedWindowDims := [0]
  scatterDimsToOperandDims := [0]
  indexVectorDim := 1
  wf := scatter_S100000x32_S700000x1_S700000x32_1_0_0_1_wf
def dot_S4000x32_S32x1_S4000x1_1_0_0_1_n_n : DotDims S4000x32 S32x1 S4000x1 where
  lhsContracting := [1]
  rhsContracting := [0]
  lhsNonContracting := [0]
  rhsNonContracting := [1]
  lhsBatch := []
  rhsBatch := []
  wf := dot_S4000x32_S32x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S4000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S100000x64 : Shape := ⟨2, ![100000, 64]⟩
abbrev S_ : Shape := ⟨0, ![]⟩
abbrev S700000x1 : Shape := ⟨2, ![700000, 1]⟩
abbrev S700000x64 : Shape := ⟨2, ![700000, 64]⟩
abbrev S1x64 : Shape := ⟨2, ![1, 64]⟩
abbrev S100000x32 : Shape := ⟨2, ![100000, 32]⟩
abbrev S700000x32 : Shape := ⟨2, ![700000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 131
  | .vmem => 0
  | .smem => 0
  | _ => 0

abbrev hbmTy0_0 (i : Nat) : BufTy := match i % 128 with
  | 0 => ⟨S100000x128, .f32⟩
  | 1 => ⟨S2x600000, .i32⟩
  | 2 => ⟨S128x64, .f32⟩
  | 3 => ⟨S64, .f32⟩
  | 4 => ⟨S64x32, .f32⟩
  | 5 => ⟨S32, .f32⟩
  | 6 => ⟨S32x1, .f32⟩
  | 7 => ⟨S1, .f32⟩
  | 8 => ⟨S100000, .i32⟩
  | 9 => ⟨S1x600000, .i32⟩
  | 10 => ⟨S600000, .i32⟩
  | 11 => ⟨S700000, .i32⟩
  | 12 => ⟨S1x600000, .i32⟩
  | 13 => ⟨S600000, .i32⟩
  | 14 => ⟨S700000, .i32⟩
  | 15 => ⟨S100000x64, .f32⟩
  | 16 => ⟨S_, .f32⟩
  | 17 => ⟨S700000, .f32⟩
  | 18 => ⟨S_, .f32⟩
  | 19 => ⟨S100000, .f32⟩
  | 20 => ⟨S700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S700000, .i32⟩
  | 32 => ⟨S700000, .i1⟩
  | 33 => ⟨S_, .i32⟩
  | 34 => ⟨S700000, .i32⟩
  | 35 => ⟨S700000, .i32⟩
  | 36 => ⟨S700000, .i32⟩
  | 37 => ⟨S700000x1, .i32⟩
  | 38 => ⟨S700000, .f32⟩
  | 39 => ⟨S_, .i32⟩
  | 40 => ⟨S700000, .i32⟩
  | 41 => ⟨S700000, .i1⟩
  | 42 => ⟨S_, .i32⟩
  | 43 => ⟨S700000, .i32⟩
  | 44 => ⟨S700000, .i32⟩
  | 45 => ⟨S700000, .i32⟩
  | 46 => ⟨S700000x1, .i32⟩
  | 47 => ⟨S700000, .f32⟩
  | 48 => ⟨S700000, .f32⟩
  | 49 => ⟨S_, .i32⟩
  | 50 => ⟨S700000, .i32⟩
  | 51 => ⟨S700000, .i1⟩
  | 52 => ⟨S_, .i32⟩
  | 53 => ⟨S700000, .i32⟩
  | 54 => ⟨S700000, .i32⟩
  | 55 => ⟨S700000, .i32⟩
  | 56 => ⟨S700000x1, .i32⟩
  | 57 => ⟨S700000x64, .f32⟩
  | 58 => ⟨S700000x1, .f32⟩
  | 59 => ⟨S700000x64, .f32⟩
  | 60 => ⟨S700000x64, .f32⟩
  | 61 => ⟨S_, .f32⟩
  | 62 => ⟨S100000x64, .f32⟩
  | 63 => ⟨S700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x32, .f32⟩
  | 72 => ⟨S_, .f32⟩
  | 73 => ⟨S700000, .f32⟩
  | 74 => ⟨S_, .f32⟩
  | 75 => ⟨S100000, .f32⟩
  | 76 => ⟨S700000x1, .i32⟩
  | 77 => ⟨S100000, .f32⟩
  | 78 => ⟨S_, .f32⟩
  | 79 => ⟨S100000, .f32⟩
  | 80 => ⟨S100000, .i1⟩
  | 81 => ⟨S100000, .f32⟩
  | 82 => ⟨S_, .f32⟩
  | 83 => ⟨S_, .f32⟩
  | 84 => ⟨S100000, .f32⟩
  | 85 => ⟨S100000, .f32⟩
  | 86 => ⟨S_, .i32⟩
  | 87 => ⟨S700000, .i32⟩
  | 88 => ⟨S700000, .i1⟩
  | 89 => ⟨S_, .i32⟩
  | 90 => ⟨S700000, .i32⟩
  | 91 => ⟨S700000, .i32⟩
  | 92 => ⟨S700000, .i32⟩
  | 93 => ⟨S700000x1, .i32⟩
  | 94 => ⟨S700000, .f32⟩
  | 95 => ⟨S_, .i32⟩
  | 96 => ⟨S700000, .i32⟩
  | 97 => ⟨S700000, .i1⟩
  | 98 => ⟨S_, .i32⟩
  | 99 => ⟨S700000, .i32⟩
  | 100 => ⟨S700000, .i32⟩
  | 101 => ⟨S700000, .i32⟩
  | 102 => ⟨S700000x1, .i32⟩
  | 103 => ⟨S700000, .f32⟩
  | 104 => ⟨S700000, .f32⟩
  | 105 => ⟨S_, .i32⟩
  | 106 => ⟨S700000, .i32⟩
  | 107 => ⟨S700000, .i1⟩
  | 108 => ⟨S_, .i32⟩
  | 109 => ⟨S700000, .i32⟩
  | 110 => ⟨S700000, .i32⟩
  | 111 => ⟨S700000, .i32⟩
  | 112 => ⟨S700000x1, .i32⟩
  | 113 => ⟨S700000x32, .f32⟩
  | 114 => ⟨S700000x1, .f32⟩
  | 115 => ⟨S700000x32, .f32⟩
  | 116 => ⟨S700000x32, .f32⟩
  | 117 => ⟨S_, .f32⟩
  | 118 => ⟨S100000x32, .f32⟩
  | 119 => ⟨S700000x1, .i32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S100000x1, .f32⟩
  | _ => ⟨S100000x128, .f32⟩

abbrev hbmTy0_1 (i : Nat) : BufTy := match i % 128 with
  | 0 => ⟨S1x1, .f32⟩
  | 1 => ⟨S100000x1, .f32⟩
  | 2 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v56 : Ref sig .tc := ⟨.hbm, 85, rfl⟩
abbrev main_c_13 : Ref sig .tc := ⟨.hbm, 86, rfl⟩
abbrev main_v57 : Ref sig .tc := ⟨.hbm, 87, rfl⟩
abbrev main_v58 : Ref sig .tc := ⟨.hbm, 88, rfl⟩
abbrev main_c_14 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_19 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_call3_cst : Ref sig .tc := ⟨.hbm, 124, rfl⟩
abbrev main_call3_v0 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S700000x1_S700000x32_0_1 : S700000x1.BroadcastsInDim S700000x32 (![0, 1] : Fin 2 → Fin S700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x64_S100000x64_1_0_0_1_n_n_wf : DotDims.WF S100000x128 S128x64 S100000x64 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S100000x64_S64x32_S100000x32_1_0_0_1_n_n_wf : DotDims.WF S100000x64 S64x32 S100000x32 [1] [0] [0] [1] [] []
  gather_S100000x32_S700000x1_S700000x32_1_0_n_n_0_1_132_wf : GatherDims.WF S100000x32 S700000x1 S700000x32 [1] [0] [] [0] [] 1 ![1, 32]
  scatter_S100000x32_S700000x1_S700000x32_1_0_0_1_wf : ScatterDims.WF S100000x32 S700000x1 S700000x32 [1] [0] [0] 1
  dot_S100000x32_S32x1_S100000x1_1_0_0_1_n_n_wf : DotDims.WF S100000x32 S32x1 S100000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S700000x1_S700000x32_1_0_n_n_0_1_132 : GatherDims S100000x32 S700000x1 S700000x32 where
  offsetDims := [1]
  collapsedSliceDims := [0]
  operandBatchingDims := []
  startIndicesBatchingDims := []
  startIndexMap := [0]
  indexVectorDim := 1
  sliceSizes := ![1, 32]
  wf := gather_S100000x32_S700000x1_S700000x32_1_0_n_n_0_1_132_wf
def scatter_S100000x32_S700000x1_S700000x32_1_0_0_1 : ScatterDims S100000x32 S700000x1 S700000x32 where
  updateWindowDims := [1]
  insertedWindowDims := [0]
  scatterDimsToOperandDims := [0]
  indexVectorDim := 1
  wf := scatter_S100000x32_S700000x1_S700000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.LibGcnLaws.lean ====
/-
  Algebraic laws of a graph-convolution layer on the extended reals.

  A layer  D (A + I) D z  with a 0/1 adjacency matrix A, the identity I and a nonnegative finite
  diagonal D can be evaluated row by row as  d i * ((∑ j, a i j * (d j * z j)) + d i * z i)  or with the
  normalised matrix formed first,  ∑ j, ((d i * (a i j + e i j)) * d j) * z j.  On the extended reals
  multiplication does not distribute over addition in general, but it does for a nonnegative finite
  multiplier on the left and for a sum of two nonnegative multipliers on the right; that is all the
  two evaluations need to agree for arbitrary (possibly infinite) z.

  Also here: an invariant of a scatter that overwrites entries, the degree sum of A + I, finiteness of
  a sum of zeros and ones, and the float literals the layer spells.
-/
import Idealize.ShloMosaic.PureOps.Ideal
import Idealize.ShloMosaic.PureOps.ShapeOps

noncomputable section

open scoped BigOperators

namespace Idealize.ShloMosaic.GcnLaws

open Idealize.ShloMosaic

/-- An invariant of a left fold: a property that holds at the start and is kept by every step holds
    at the end. -/
theorem foldl_invariant {β γ : Type} (Q : β → Prop) (f : β → γ → β) (hf : ∀ b c, Q b → Q (f b c)) :
    ∀ (l : List γ) (b : β), Q b → Q (l.foldl f b)
  | [], _, hb => hb
  | c :: l, b, hb => foldl_invariant Q f hf l (f b c) (hf b c hb)

/-- A scatter whose body returns the update leaves every entry either the operand's or one of the
    updates': a property that holds of all the operand's entries and of all the updates holds of every
    entry of the result. Each step of the fold either keeps the running result or overwrites one entry
    with an update, so the property of all entries is kept along the fold. -/
theorem scatter_set_ind {α : Type} {s si u : Shape} {w : Nat} (d : ScatterDims s si u) (x : s.Idx → α)
    (idx : IVec si w) (upd : u.Idx → α) (P : α → Prop) (hx : ∀ i, P (x i)) (hu : ∀ j, P (upd j))
    (i : s.Idx) : P (Host.scatter d (fun _ b => b) x idx upd i) := by
  unfold Host.scatter
  refine foldl_invariant (fun r : s.Idx → α => ∀ i, P (r i)) _ ?_ _ x hx i
  intro r n hr i'
  dsimp only
  generalize d.resultIdx? (u.rowMajor.symm n) idx = o
  cases o with
  | none => exact hr i'
  | some k =>
    dsimp only
    split_ifs
    · exact hu _
    · exact hr _

/-- A nonnegative finite constant multiplies through a finite sum of extended reals. -/
theorem mul_sum_of_nonneg_ne_top {ι : Type} (s : Finset ι) (c : EReal) (hc0 : 0 ≤ c) (hct : c ≠ ⊤)
    (f : ι → EReal) : c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top hc0 hct, ih]

/-- The two evaluations of one row of the layer D (A + I) D z agree for every z: with a 0/1 matrix a,
    the identity e and a nonnegative finite diagonal d,
    d i * ((∑ j, a i j * (d j * z j)) + d i * z i) = ∑ j, ((d i * (a i j + e i j)) * d j) * z j.
    Every multiplier that is distributed over a sum is nonnegative and finite (on the left) or a sum of
    two nonnegative terms (on the right), where the extended reals do distribute. -/
theorem layer_law {n : ℕ} (a e : Fin n → Fin n → EReal) (d z : Fin n → EReal)
    (ha : ∀ i j, a i j = 0 ∨ a i j = 1) (he : ∀ i j, e i j = if i = j then 1 else 0)
    (hd0 : ∀ i, 0 ≤ d i) (hdt : ∀ i, d i ≠ ⊤) (i : Fin n) :
    d i * ((∑ j, a i j * (d j * z j)) + d i * z i) = ∑ j, ((d i * (a i j + e i j)) * d j) * z j := by
  have ha0 : ∀ j, 0 ≤ a i j := fun j => by rcases ha i j with h | h <;> rw [h] <;> norm_num
  have he0 : ∀ j, 0 ≤ e i j := fun j => by rw [he]; split_ifs <;> norm_num
  have hterm : ∀ j, ((d i * (a i j + e i j)) * d j) * z j
      = d i * (a i j * (d j * z j)) + d i * (e i j * (d j * z j)) := by
    intro j
    rw [EReal.left_distrib_of_nonneg_of_ne_top (hd0 i) (hdt i),
      EReal.right_distrib_of_nonneg (mul_nonneg (hd0 i) (ha0 j)) (mul_nonneg (hd0 i) (he0 j)),
      EReal.right_distrib_of_nonneg (mul_nonneg (mul_nonneg (hd0 i) (ha0 j)) (hd0 j))
        (mul_nonneg (mul_nonneg (hd0 i) (he0 j)) (hd0 j))]
    simp only [mul_assoc]
  rw [Finset.sum_congr rfl (fun j _ => hterm j), Finset.sum_add_distrib,
    ← mul_sum_of_nonneg_ne_top _ _ (hd0 i) (hdt i), ← mul_sum_of_nonneg_ne_top _ _ (hd0 i) (hdt i),
    ← EReal.left_distrib_of_nonneg_of_ne_top (hd0 i) (hdt i)]
  congr 2
  rw [Finset.sum_eq_single i]
  · rw [he, if_pos rfl, one_mul]
  · intro j _ hji
    rw [he, if_neg (Ne.symm hji), zero_mul]
  · intro h
    exact absurd (Finset.mem_univ i) h

/-- The entries of one row of the identity matrix sum to one. -/
theorem sum_identity_row {n : ℕ} (e : Fin n → Fin n → EReal) (he : ∀ i j, e i j = if i = j then 1 else 0)
    (i : Fin n) : ∑ j, e i j = 1 := by
  rw [Finset.sum_eq_single i]
  · rw [he, if_pos rfl]
  · intro j _ hji
    rw [he, if_neg (Ne.symm hji)]
  · intro h
    exact absurd (Finset.mem_univ i) h

/-- The degree of a vertex with its self-loop, summed from zero over the row of A + I, is the row sum of
    A (each entry times one) plus one: additive rearrangement and the identity's row sum. -/
theorem degree_law {n : ℕ} (a e : Fin n → Fin n → EReal) (he : ∀ i j, e i j = if i = j then 1 else 0)
    (i : Fin n) : (0 + ∑ j, (a i j + e i j)) = (∑ j, a i j * 1) + 1 := by
  rw [zero_add, Finset.sum_add_distrib, sum_identity_row e he i]
  simp only [mul_one]

/-- A finite sum of zeros and ones is a nonnegative real. -/
theorem sum_zero_one_real {ι : Type} (s : Finset ι) (a : ι → EReal) (ha : ∀ j, a j = 0 ∨ a j = 1) :
    ∃ r : ℝ, 0 ≤ r ∧ ∑ j ∈ s, a j = (r : EReal) := by
  classical
  induction s using Finset.induction_on with
  | empty => exact ⟨0, le_refl _, by simp⟩
  | insert b s hb ih =>
    obtain ⟨r, hr0, hr⟩ := ih
    rw [Finset.sum_insert hb, hr]
    rcases ha b with h | h
    · exact ⟨r, hr0, by rw [h, zero_add]⟩
    · exact ⟨1 + r, by positivity, by rw [h, EReal.coe_add, EReal.coe_one]⟩

/-- The f32 pattern `0x3F800000` is the extended real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The bf16 pattern `0x3F80` is the extended real one. -/
theorem ofBits_one_bf16 : Ideal.ofBits .bf16 0x3F80#16 = 1 := by
  rw [show (1 : EReal) = ((1 : ℝ) : EReal) by norm_cast]
  simp [Ideal.ofBits, Ideal.ieee, -EReal.coe_mul]; norm_num

/-- The bf16 pattern of zero is the extended real zero. -/
theorem ofBits_zero_bf16 : Ideal.ofBits .bf16 0x0000#16 = 0 := by simp [Ideal.ofBits, Ideal.ieee]

/-- The f32 pattern `0x322BCC77` (sign 0, exponent 100, fraction 2870391) is the real
    11258999 · 2⁻⁵⁰. -/
theorem ofBits_eps_f32_val :
    Ideal.ofBits .f32 0x322BCC77#32 = (((11258999 : ℝ) * (2 : ℝ) ^ (-50 : ℤ) : ℝ) : EReal) := by
  simp [Ideal.ofBits, Ideal.ieee, -EReal.coe_mul]

/-- The f32 pattern `0x322BCC77` is a nonnegative real. -/
theorem ofBits_eps_f32 : ∃ e : ℝ, 0 ≤ e ∧ Ideal.ofBits .f32 0x322BCC77#32 = (e : EReal) :=
  ⟨(11258999 : ℝ) * (2 : ℝ) ^ (-50 : ℤ), by positivity, ofBits_eps_f32_val⟩

/-- The f32 pattern `0xBF000000` (sign 1, exponent 126, fraction 0) is the real -1/2. -/
theorem ofBits_neg_half_f32_val : Ideal.ofBits .f32 0xBF000000#32 = ((-(1 / 2 : ℝ) : ℝ) : EReal) := by
  simp [Ideal.ofBits, Ideal.ieee, -EReal.coe_mul, -EReal.coe_neg]; norm_num

/-- The f32 pattern `0xBF000000` is a real. -/
theorem ofBits_neg_half_f32 : ∃ p : ℝ, Ideal.ofBits .f32 0xBF000000#32 = (p : EReal) :=
  ⟨-(1 / 2 : ℝ), ofBits_neg_half_f32_val⟩

/-- The inverse square root of a degree: for a nonnegative real r, (r + 1 + ε) to the power -1/2, with
    ε and -1/2 the two f32 literals, is a nonnegative extended real and is not ⊤. Base and exponent are
    reals, the base nonnegative, so the power is a real power of a nonnegative real. -/
theorem dinv_nonneg_finite (r : ℝ) (hr : 0 ≤ r) :
    0 ≤ Ideal.pow (((r : ℝ) : EReal) + 1 + Ideal.ofBits .f32 0x322BCC77#32) (Ideal.ofBits .f32 0xBF000000#32)
    ∧ Ideal.pow ((r : EReal) + 1 + Ideal.ofBits .f32 0x322BCC77#32) (Ideal.ofBits .f32 0xBF000000#32) ≠ ⊤ := by
  obtain ⟨e, he0, he⟩ := ofBits_eps_f32
  obtain ⟨p, hp⟩ := ofBits_neg_half_f32
  rw [he, hp, ← EReal.coe_one, ← EReal.coe_add, ← EReal.coe_add, Ideal.pow_coe_coe]
  exact ⟨EReal.coe_nonneg.mpr (Real.rpow_nonneg (by linarith) p), EReal.coe_ne_top _⟩

end Idealize.ShloMosaic.GcnLaws

end
-- ==== Proof.LibGcnFolded.lean ====
/-
  Two evaluations of a two-layer graph convolution, on the extended reals.

  Nodes are numbered by `Fin n`, messages (edges and self-loops) by a finite type `ε`. A message `e` is read from
  node `S e`; `L e i` says that it is delivered to node `i`, and then `D e = i`. With a nonnegative finite
  coefficient `dis i` per node, a layer's normalized aggregation can be formed with the coefficient of the source
  folded into the features before the messages are formed and the coefficient of the target applied after the sum,
      dis i * (0 + ∑_{e → i} (g (S e) * dis (S e))),
  or with the product of the two coefficients attached to every message,
      0 + ∑_{e → i} g (S e) * (dis (S e) * dis (D e)).
  The two agree for arbitrary (possibly infinite) features `g`: the only law used beyond commutativity and associativity
  is that a nonnegative finite factor goes through a finite sum.
-/
import Idealize.ShloMosaic.PureOps.Ideal
import proofs.«141033_j88948772700968_2_alg».proof.Proof.LibGcnLaws

noncomputable section

open scoped BigOperators

namespace Cert.GcnSpec

open Idealize.ShloMosaic

variable {n d₁ d₂ : ℕ} {ε : Type} [Fintype ε]

/-- One row of the aggregation law: the target's coefficient `c` applied after the sum of messages that already
    carry the source's coefficient, against messages that carry the product of both. -/
theorem aggregate_law (s : Finset ε) (c : EReal) (hc0 : 0 ≤ c) (hct : c ≠ ⊤) (g a b : ε → EReal)
    (hb : ∀ e ∈ s, b e = c) :
    c * (0 + ∑ e ∈ s, g e * a e) = 0 + ∑ e ∈ s, g e * (a e * b e) := by
  rw [zero_add, zero_add, GcnLaws.mul_sum_of_nonneg_ne_top s c hc0 hct]
  refine Finset.sum_congr rfl fun e he => ?_
  rw [hb e he, mul_comm c, mul_assoc]

section Layers

variable (S D : ε → Fin n) (L : ε → Fin n → Prop) [∀ e i, Decidable (L e i)] (dis : Fin n → EReal)
variable (x : Fin n → Fin d₁ → EReal) (w1 : Fin d₁ → Fin d₂ → EReal) (b1 : Fin d₂ → EReal) (w2 : Fin d₂ → EReal) (b2 : EReal)

/-- The messages delivered to node `i`. -/
def into (i : Fin n) : Finset ε := Finset.univ.filter fun e => L e i

/-- First dense stage with the source coefficient folded in: `(x W₁) · dis`. -/
def scaled1 (i : Fin n) (j : Fin d₂) : EReal := (∑ k, x i k * w1 k j) * dis i
/-- First aggregation of the scaled features. -/
def agg1 (i : Fin n) (j : Fin d₂) : EReal := 0 + ∑ e ∈ into L i, scaled1 dis x w1 (S e) j
/-- The hidden layer: the target coefficient, the bias and the rectifier. -/
def hidden (i : Fin n) (j : Fin d₂) : EReal := max (dis i * agg1 S L dis x w1 i j + b1 j) 0
/-- Second dense stage with the source coefficient folded in. -/
def scaled2 (i : Fin n) : EReal := (∑ k, hidden S L dis x w1 b1 i k * w2 k) * dis i
/-- Second aggregation. -/
def agg2 (i : Fin n) : EReal := 0 + ∑ e ∈ into L i, scaled2 S L dis x w1 b1 w2 (S e)
/-- THE FOLDED EVALUATION: what the tiled program computes. -/
def folded (i : Fin n) : EReal := dis i * agg2 S L dis x w1 b1 w2 i + b2

/-- The normalization attached to a message. -/
def norm (e : ε) : EReal := dis (S e) * dis (D e)
/-- First layer with per-message normalization, bias and rectifier. -/
def refHidden (i : Fin n) (j : Fin d₂) : EReal :=
  max ((0 + ∑ e ∈ into L i, (∑ k, x (S e) k * w1 k j) * norm S D dis e) + b1 j) 0
/-- THE PER-MESSAGE EVALUATION: what the plain program computes. -/
def perMessage (i : Fin n) : EReal :=
  (0 + ∑ e ∈ into L i, (∑ k, refHidden S D L dis x w1 b1 (S e) k * w2 k) * norm S D dis e) + b2

variable (hD : ∀ e i, L e i → D e = i) (h0 : ∀ i, 0 ≤ dis i) (ht : ∀ i, dis i ≠ ⊤)
include hD h0 ht

theorem hidden_eq (i : Fin n) (j : Fin d₂) : hidden S L dis x w1 b1 i j = refHidden S D L dis x w1 b1 i j := by
  unfold hidden refHidden agg1 scaled1 norm
  rw [aggregate_law (into L i) (dis i) (h0 i) (ht i) (fun e => ∑ k, x (S e) k * w1 k j) (fun e => dis (S e))
    (fun e => dis (D e)) (fun e he => by rw [hD e i (Finset.mem_filter.mp he).2])]

/-- THE TWO EVALUATIONS AGREE. -/
theorem folded_eq (i : Fin n) : folded S L dis x w1 b1 w2 b2 i = perMessage S D L dis x w1 b1 w2 b2 i := by
  unfold folded perMessage agg2 scaled2 norm
  rw [aggregate_law (into L i) (dis i) (h0 i) (ht i) (fun e => ∑ k, hidden S L dis x w1 b1 (S e) k * w2 k)
    (fun e => dis (S e)) (fun e => dis (D e)) (fun e he => by rw [hD e i (Finset.mem_filter.mp he).2])]
  simp only [hidden_eq S D L dis x w1 b1 hD h0 ht]

end Layers

end Cert.GcnSpec

end
-- ==== Proof.LibRowGather.lean ====
/-
  A row gather read at an index.

  What `x[idx]` of a table `x : [N, D]` at a vector of row numbers lowers to: a gather with offset axis 1, collapsed
  axis 0, start index map [0] and slice sizes [1, D] over the row numbers as an `[E, 1]` array. The entry (e, j) of the
  result is the table's entry (r, j), where r is the row number `idx[e, 0]` read as a signed integer and clamped into
  [0, N − 1]: the column passes through, the row is looked up.
-/
import Idealize.ShloMosaic.Lib.ValueIdx

noncomputable section

namespace Idealize.ShloMosaic.RowGather

open Idealize.ShloMosaic Idealize.ShloMosaic.ValueIdx

variable {α : Type}

/-- The dimension numbers of a row gather: table `[N, D]`, row numbers `[E, 1]`, result `[E, D]`. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a row number selects: read signed, clamped into `[0, N − 1]`. -/
abbrev rowOf {N w : Nat} (hN : 0 < N) (b : BitVec w) : Fin N := ⟨min b.toInt.toNat (N - 1), by omega⟩

/-- THE ROW GATHER READ AT `(e, j)`: the table at the selected row and the same column. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowDims N E D wf) x idx (ix2 e j) = x (ix2 (rowOf hN (idx (ix2 e (0 : Fin 1)))) j) := by
  unfold Host.gather
  congr 1
  funext a
  refine Fin.ext ?_
  match a with
  | ⟨0, _⟩ =>
    show (rowDims N E D wf).start (ix2 e j) idx 0 + (rowDims N E D wf).batchCoord (ix2 e j) 0
      + (rowDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E D wf).startIndexMap from List.mem_singleton.mpr rfl)]
    have hsi : (rowDims N E D wf).siIdx (ix2 e j) ⟨List.idxOf (0 : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E D wf).start (ix2 e j) idx 1 + (rowDims N E D wf).batchCoord (ix2 e j) 1
      + (rowDims N E D wf).offCoord (ix2 e j) 1 = j.val
    rw [GatherDims.batchCoord_eq_zero _ _ _ List.not_mem_nil]
    unfold GatherDims.start
    rw [dif_neg (show (1 : Fin 2) ∉ (rowDims N E D wf).startIndexMap from fun h =>
      absurd (show (1 : Nat) = 0 from congrArg Fin.val (List.mem_singleton.mp h)) (by decide))]
    simp only [Nat.add_zero, Nat.zero_add]
    rfl

end Idealize.ShloMosaic.RowGather

end
-- ==== Proof.LibVecGather.lean ====
/-
  A gather from a vector read at an index.

  What `x[idx]` of a vector `x : [N]` at a vector of positions lowers to: a gather with no offset axis, collapsed
  axis 0, start index map [0] and slice size 1 over the positions as an `[E, 1]` array. Entry e of the result is the
  vector's entry r, where r is the position `idx[e, 0]` read as a signed integer and clamped into [0, N − 1].
-/
import Idealize.ShloMosaic.Lib.ValueIdx
import proofs.«141033_j88948772700968_2_alg».proof.Proof.LibRowGather

noncomputable section

namespace Idealize.ShloMosaic.RowGather

open Idealize.ShloMosaic Idealize.ShloMosaic.ValueIdx

variable {α : Type}

/-- The dimension numbers of a gather from a vector: vector `[N]`, positions `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at the selected position. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (rowOf hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.RowGather

end
-- ==== Proof.LibRowScatter.lean ====
/-
  Where the updates of a row scatter land.

  What `x.at[idx].add(u)` of a table `x : [N, D]` (or a vector `x : [N]`) at a vector of row numbers lowers to: a
  scatter with inserted window axis 0, scatter-dims-to-operand-dims [0], the row numbers an `[E, 1]` array, and the
  updates `[E, D]` with window axis 1 (or `[E]` with no window axis). The update (e, j') lands at the table's entry
  (i, j) exactly when the row number `idx[e, 0]`, read as a signed integer and NOT clamped, is i, and j' = j; an
  update whose row number is outside 0 … N − 1 lands nowhere.
-/
import Idealize.ShloMosaic.Lib.ValueIdx

noncomputable section

namespace Idealize.ShloMosaic.RowScatter

open Idealize.ShloMosaic Idealize.ShloMosaic.ValueIdx

/-- The dimension numbers of a row scatter into a table: operand `[N, D]`, row numbers `[E, 1]`, updates `[E, D]`. -/
abbrev rowDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of a scatter into a vector: operand `[N]`, row numbers `[E, 1]`, updates `[E]`. -/
abbrev vecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Table

variable {N E D w : Nat} (wf : ScatterDims.WF ⟨2, ![N, D]⟩ ⟨2, ![E, 1]⟩ ⟨2, ![E, D]⟩ [1] [0] [0] 1)
  (idx : IVec ⟨2, ![E, 1]⟩ w) (e : Fin E) (j' : Fin D)

/-- On the row axis the window starts at the update's row number, read signed. -/
theorem row_start_zero : (rowDims N E D wf).start (ix2 e j') idx 0 = (idx (ix2 e (0 : Fin 1))).toInt := by
  unfold ScatterDims.start
  rw [dif_pos (show (0 : Fin 2) ∈ (rowDims N E D wf).scatterDimsToOperandDims from List.mem_singleton.mpr rfl)]
  have hsi : (rowDims N E D wf).siIdx (ix2 e j') ⟨List.idxOf (0 : Fin 2) (rowDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at zero. -/
theorem row_start_one : (rowDims N E D wf).start (ix2 e j') idx 1 = 0 := by
  unfold ScatterDims.start
  rw [dif_neg (show (1 : Fin 2) ∉ (rowDims N E D wf).scatterDimsToOperandDims from fun h =>
    absurd (show (1 : Nat) = 0 from congrArg Fin.val (List.mem_singleton.mp h)) (by decide))]

/-- The row axis is inserted: no window coordinate. -/
theorem row_window_zero : (rowDims N E D wf).window (ix2 e j') 0 = 0 := by
  unfold ScatterDims.window
  rw [dif_neg (show (0 : Fin 2) ∉ (rowDims N E D wf).sKept by simp [ScatterDims.sKept, Shape.kept, List.mem_filter, List.mem_finRange])]

/-- The column axis carries the update's column. -/
theorem row_window_one : (rowDims N E D wf).window (ix2 e j') 1 = j'.val := by
  unfold ScatterDims.window
  rw [dif_pos (show (1 : Fin 2) ∈ (rowDims N E D wf).sKept by simp [ScatterDims.sKept, Shape.kept, List.mem_filter, List.mem_finRange])]
  rfl

/-- WHERE A TABLE UPDATE LANDS: update (e, j') lands at (i, j) iff its row number read signed is i and j' = j. -/
theorem row_resultIdx_iff (i : Fin N) (j : Fin D) :
    (rowDims N E D wf).resultIdx? (ix2 e j') idx = some (ix2 i j)
      ↔ (idx (ix2 e (0 : Fin 1))).toInt = (i.val : Int) ∧ j' = j := by
  unfold ScatterDims.resultIdx?
  have hi := i.isLt
  have hj := j'.isLt
  split
  · rename_i h
    rw [Option.some.injEq]
    constructor
    · intro heq
      have e0 := congrArg (fun f => (f 0).val) heq
      have e1 := congrArg (fun f => (f 1).val) heq
      have h0 := h 0
      simp only [row_start_zero, row_start_one, row_window_zero, row_window_one] at e0 e1 h0
      change _ = i.val at e0
      change _ = j.val at e1
      refine ⟨by omega, Fin.ext (by omega)⟩
    · rintro ⟨hr, rfl⟩
      funext a; refine Fin.ext ?_
      match a with
      | ⟨0, _⟩ =>
        show ((rowDims N E D wf).start (ix2 e j') idx 0 + ((rowDims N E D wf).window (ix2 e j') 0 : Nat)).toNat = i.val
        rw [row_start_zero, row_window_zero, hr]; simp
      | ⟨1, _⟩ =>
        show ((rowDims N E D wf).start (ix2 e j') idx 1 + ((rowDims N E D wf).window (ix2 e j') 1 : Nat)).toNat = j'.val
        rw [row_start_one, row_window_one]; simp
  · rename_i h
    constructor
    · intro heq; exact absurd heq (by simp)
    · rintro ⟨hr, rfl⟩
      exfalso; apply h
      intro a
      match a with
      | ⟨0, _⟩ =>
        show 0 ≤ (rowDims N E D wf).start (ix2 e j') idx 0 + ((rowDims N E D wf).window (ix2 e j') 0 : Nat)
          ∧ (rowDims N E D wf).start (ix2 e j') idx 0 + ((rowDims N E D wf).window (ix2 e j') 0 : Nat) < (N : Int)
        rw [row_start_zero, row_window_zero, hr]; constructor <;> omega
      | ⟨1, _⟩ =>
        show 0 ≤ (rowDims N E D wf).start (ix2 e j') idx 1 + ((rowDims N E D wf).window (ix2 e j') 1 : Nat)
          ∧ (rowDims N E D wf).start (ix2 e j') idx 1 + ((rowDims N E D wf).window (ix2 e j') 1 : Nat) < (D : Int)
        rw [row_start_one, row_window_one]; constructor <;> omega

end Table

section Vector

variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the update's row number, read signed. -/
theorem vec_start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one axis is inserted: no window coordinate. -/
theorem vec_window_zero : (vecDims N E wf).window (ix1 e) 0 = 0 := by
  unfold ScatterDims.window
  rw [dif_neg (show (0 : Fin 1) ∉ (vecDims N E wf).sKept by simp [ScatterDims.sKept, Shape.kept, List.mem_filter, List.mem_finRange])]

/-- WHERE A VECTOR UPDATE LANDS: update e lands at i iff its row number read signed is i. -/
theorem vec_resultIdx_iff (i : Fin N) :
    (vecDims N E wf).resultIdx? (ix1 e) idx = some (ix1 i) ↔ (idx (ix2 e (0 : Fin 1))).toInt = (i.val : Int) := by
  unfold ScatterDims.resultIdx?
  have hi := i.isLt
  split
  · rename_i h
    rw [Option.some.injEq]
    constructor
    · intro heq
      have e0 := congrArg (fun f => (f 0).val) heq
      have h0 := h 0
      simp only [vec_start_zero, vec_window_zero] at e0 h0
      change _ = i.val at e0
      omega
    · intro hr
      funext a; refine Fin.ext ?_
      match a with
      | ⟨0, _⟩ =>
        show ((vecDims N E wf).start (ix1 e) idx 0 + ((vecDims N E wf).window (ix1 e) 0 : Nat)).toNat = i.val
        rw [vec_start_zero, vec_window_zero, hr]; simp
  · rename_i h
    constructor
    · intro heq; exact absurd heq (by simp)
    · intro hr
      exfalso; apply h
      intro a
      match a with
      | ⟨0, _⟩ =>
        show 0 ≤ (vecDims N E wf).start (ix1 e) idx 0 + ((vecDims N E wf).window (ix1 e) 0 : Nat)
          ∧ (vecDims N E wf).start (ix1 e) idx 0 + ((vecDims N E wf).window (ix1 e) 0 : Nat) < (N : Int)
        rw [vec_start_zero, vec_window_zero, hr]; constructor <;> omega

end Vector

end Idealize.ShloMosaic.RowScatter

end
-- ==== Proof.LibScatterSum.lean ====
/-
  A row scatter-add read at an index, on the extended reals.

  The host's accumulating scatter of updates `[E, D]` (or `[E]`) into a table `[N, D]` (or a vector `[N]`) at row
  numbers `[E, 1]`: the entry (i, j) of the result is the operand's entry plus the sum, over the updates e whose row
  number read signed is i, of the update's entry (e, j). Updates whose row number is outside 0 … N − 1 contribute
  nothing.
-/
import Idealize.ShloMosaic.Lib.ValueIdx
import Idealize.ShloMosaic.PureOps.Ideal
import proofs.«141033_j88948772700968_2_alg».proof.Proof.LibRowScatter

noncomputable section

open scoped BigOperators

namespace Idealize.ShloMosaic.RowScatter

open Idealize.ShloMosaic Idealize.ShloMosaic.ValueIdx

/-- THE TABLE SCATTER-ADD READ AT (i, j). -/
theorem rowScatterAdd_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (i : Fin N) (j : Fin D) :
    Ideal.hostScatterAdd (rowDims N E D wf) x idx upd (ix2 i j)
      = x (ix2 i j) + ∑ e ∈ Finset.univ.filter (fun e : Fin E => (idx (ix2 e (0 : Fin 1))).toInt = (i.val : Int)), upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, (row_resultIdx_iff wf idx e j i j).mpr ⟨he.2, rfl⟩⟩
  · intro e₁ _ e₂ _ h
    have h0 := congrFun h 0
    exact Fin.ext (congrArg Fin.val h0)
  · intro p hp
    rw [Finset.mem_filter] at hp
    obtain ⟨e, j', rfl⟩ : ∃ (e : Fin E) (j' : Fin D), p = ix2 e j' := ⟨p 0, p 1, eq_ix2 p⟩
    obtain ⟨h1, rfl⟩ := (row_resultIdx_iff wf idx e j' i j).mp hp.2
    exact ⟨e, Finset.mem_filter.mpr ⟨Finset.mem_univ _, h1⟩, rfl⟩
  · intro e _; rfl

/-- THE VECTOR SCATTER-ADD READ AT i. -/
theorem vecScatterAdd_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (i : Fin N) :
    Ideal.hostScatterAdd (vecDims N E wf) x idx upd (ix1 i)
      = x (ix1 i) + ∑ e ∈ Finset.univ.filter (fun e : Fin E => (idx (ix2 e (0 : Fin 1))).toInt = (i.val : Int)), upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vec_resultIdx_iff wf idx e i).mpr he.2⟩
  · intro e₁ _ e₂ _ h
    have h0 := congrFun h 0
    exact Fin.ext (congrArg Fin.val h0)
  · intro p hp
    rw [Finset.mem_filter] at hp
    obtain ⟨e, rfl⟩ : ∃ e : Fin E, p = ix1 e := ⟨p 0, eq_ix1 p⟩
    exact ⟨e, Finset.mem_filter.mpr ⟨Finset.mem_univ _, (vec_resultIdx_iff wf idx e i).mp hp.2⟩, rfl⟩
  · intro e _; rfl

end Idealize.ShloMosaic.RowScatter

end
-- ==== Proof.LibHostKeepdims.lean ====
/-
  The host's keepdims layout forms and its one-axis sum of a matrix, read at an index.

  * `bcast_a_a1_apply`: an `[a]` vector placed along axis 0 of an `[a, 1]` column reads, at `(p, u)`, the vector at `p`.
  * `bcast_a1_ab_apply`: an `[a, 1]` column spread over `b` columns reads, at `(p, q)`, the column at `(p, 0)`.
  * `bcast_b_1b_apply`: a `[b]` vector placed along axis 1 of a `[1, b]` row reads, at `(u, k)`, the vector at `k`.
  * `hostRowSum_apply`: at the ideal values the host's sum of an `[a, b]` matrix along axis 1, from the initial value
    `init`, is at `p` the initial value plus the sum over `k` of the entries `(p, k)`.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostKeepdims

open Idealize.ShloMosaic Idealize.ShloMosaic.ValueIdx

variable {α : Type}

/-- An `[a]` vector placed along axis 0 of an `[a, 1]` column reads, at `(p, u)`, the vector at `p`. -/
theorem bcast_a_a1_apply {a : ℕ} (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- An `[a, 1]` column spread over `b` columns reads, at `(p, q)`, the column at `(p, 0)`. -/
theorem bcast_a1_ab_apply {a b : ℕ} (h : (⟨2, ![a, 1]⟩ : Shape).BroadcastsInDim ⟨2, ![a, b]⟩ ![0, 1]) (v : (⟨2, ![a, 1]⟩ : Shape).Idx → α)
    (p : Fin a) (q : Fin b) : broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector placed along axis 1 of a `[1, b]` row reads, at `(u, k)`, the vector at `k`. -/
theorem bcast_b_1b_apply {b : ℕ} (h : (⟨1, ![b]⟩ : Shape).BroadcastsInDim ⟨2, ![1, b]⟩ ![1]) (v : (⟨1, ![b]⟩ : Shape).Idx → α)
    (u : Fin 1) (k : Fin b) : broadcastInDim ⟨2, ![1, b]⟩ ![1] h v (ix2 u k) = v (ix1 k) := by
  refine broadcastInDim_apply ![1] h v (ix2 u k) (ix1 k) fun ax => ?_
  match ax with
  | ⟨0, _⟩ =>
    show k.val = if b = 1 then 0 else k.val
    split
    · have := k.isLt; omega
    · rfl

/-- At the ideal values the host's sum of an `[a, b]` matrix along axis 1 is, at `p`, the initial value plus the sum over
    `k` of the entries `(p, k)`. -/
theorem hostRowSum_apply {a b : ℕ} {φ : FTy} (x : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd x init h' hu (ix1 p) = init (Shape.Idx.first hu) + ∑ k : Fin b, x (ix2 p k) := by
  refine (hostReduceAdd_apply x init h' hu (ix1 p)).trans ?_
  refine (Ideal.hostReduceAdd_single h' h x _ (ix1 p)).trans ?_
  refine congrArg (init (Shape.Idx.first hu) + ·) (Finset.sum_congr rfl fun k _ => congrArg x (funext fun ax => Fin.ext ?_))
  match ax with
  | ⟨0, _⟩ => rfl
  | ⟨1, _⟩ => rfl

end Cert.LibHostKeepdims

end
-- ==== Proof.LibGcnWords.lean ====
/-
  The message-passing operations of a graph convolution read at an index, on the extended reals.

  The row numbers of the messages come as 32-bit words. A message is READ from the row its source word names after
  the usual treatment of a gather (a negative word wrapped once by the number of nodes, then clamped into range);
  it is DELIVERED to row i exactly when its target word, read as a signed integer, is i — words outside the range
  deliver nothing. A message delivered to row i has target row i also under the gather's treatment. The degree of a
  node is the number of messages delivered to it, and the normalization coefficient — the inverse square root of a
  positive degree, zero otherwise — is a nonnegative real.
-/
import Idealize.ShloMosaic.Lib.ValueIdx
import Idealize.ShloMosaic.Lib.ValueLayout
import Idealize.ShloMosaic.PureOps.Ideal.Laws
import proofs.«141033_j88948772700968_2_alg».proof.Proof.LibRowGather
import proofs.«141033_j88948772700968_2_alg».proof.Proof.LibVecGather
import proofs.«141033_j88948772700968_2_alg».proof.Proof.LibScatterSum
import proofs.«141033_j88948772700968_2_alg».proof.Proof.LibHostKeepdims
import proofs.«141033_j88948772700968_2_alg».proof.Proof.LibGcnLaws

noncomputable section

open scoped BigOperators

namespace Cert.GcnRead

open Idealize.ShloMosaic Idealize.ShloMosaic.ValueIdx Idealize.ShloMosaic.RowGather

variable {N E : ℕ}

/-- The row a word names under a gather's treatment: wrapped once if negative, then clamped. -/
def node (hN : 0 < N) (v z n : IVec ⟨1, ![E]⟩ 32) (e : Fin E) : Fin N :=
  rowOf hN (select (cmpi .slt v z) (addi v n) v (ix1 e))

/-- Message e is delivered to row i. -/
def lands (v : IVec ⟨1, ![E]⟩ 32) (e : Fin E) (i : Fin N) : Prop := (v (ix1 e)).toInt = (i.val : Int)

instance (v : IVec ⟨1, ![E]⟩ 32) (e : Fin E) (i : Fin N) : Decidable (lands v e i) := by unfold lands; infer_instance

/-- A message delivered to row i names row i under the gather's treatment too: its word is a nonnegative in-range
    integer, so it is neither wrapped nor clamped. -/
theorem node_of_lands (hN : 0 < N) (v z n : IVec ⟨1, ![E]⟩ 32) (e : Fin E) (i : Fin N) (hz : z (ix1 e) = 0#32)
    (h : lands v e i) : node hN v z n e = i := by
  unfold lands at h
  unfold node
  rw [select_apply]
  have hc : cmpi .slt v z (ix1 e) = 0#1 := by
    show IntOp.cmpi .slt (v (ix1 e)) (z (ix1 e)) = 0#1
    rw [hz]
    unfold IntOp.cmpi
    have : (v (ix1 e)).slt 0#32 = false := by
      rw [BitVec.slt, h]
      simp
    simp [this]
  rw [hc]
  show rowOf hN (v (ix1 e)) = i
  refine Fin.ext ?_
  show min (v (ix1 e)).toInt.toNat (N - 1) = i.val
  rw [h, Int.toNat_natCast]
  have := i.isLt
  omega

/-- The degree of row i: the messages delivered to it, counted from the float zero in float ones. -/
def deg (v : IVec ⟨1, ![E]⟩ 32) (i : Fin N) : EReal :=
  Ideal.ofBits .f32 0x00000000#32
    + ∑ _e ∈ Finset.univ.filter (fun e : Fin E => lands v e i), Ideal.ofBits .f32 0x3F800000#32

/-- The normalization coefficient of row i. -/
def coef (v : IVec ⟨1, ![E]⟩ 32) (i : Fin N) : EReal :=
  Scalar.select (Ideal.cmp .ogt (deg v i) (Ideal.ofBits .f32 0x00000000#32)) (Ideal.rsqrt (deg v i))
    (Ideal.ofBits .f32 0x00000000#32)

/-- A degree is a nonnegative real. -/
theorem deg_real (v : IVec ⟨1, ![E]⟩ 32) (i : Fin N) : ∃ r : ℝ, 0 ≤ r ∧ deg v i = (r : EReal) := by
  obtain ⟨r, hr0, hr⟩ := GcnLaws.sum_zero_one_real (Finset.univ.filter (fun e : Fin E => lands v e i))
    (fun _ => Ideal.ofBits .f32 0x3F800000#32) (fun _ => Or.inr GcnLaws.ofBits_one_f32)
  exact ⟨r, hr0, by unfold deg; rw [Ideal.ofBits_zero_f32, zero_add, hr]⟩

/-- A coefficient is nonnegative and finite: zero at degree zero, the inverse square root of a positive real
    otherwise. -/
theorem coef_bounds (v : IVec ⟨1, ![E]⟩ 32) (i : Fin N) : 0 ≤ coef v i ∧ coef v i ≠ ⊤ := by
  obtain ⟨r, hr0, hr⟩ := deg_real v i
  unfold coef
  rw [hr, Ideal.ofBits_zero_f32]
  unfold Scalar.select
  split
  · rename_i hc
    have hpos : 0 < r := by
      unfold Ideal.cmp at hc
      by_contra hneg
      have h0 : r = 0 := le_antisymm (not_lt.mp hneg) hr0
      subst h0
      simp at hc
    have hrs : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr0), if_neg (ne_of_gt hpos)]
    rw [hrs]
    exact ⟨EReal.coe_nonneg.mpr (inv_nonneg.mpr (Real.sqrt_nonneg r)), EReal.coe_ne_top _⟩
  · exact ⟨le_refl _, EReal.zero_ne_top⟩

end Cert.GcnRead

end
-- ==== Proof.Net.lean ====
/-
  A two-layer graph convolution with a linear head, evaluated in two ways on the extended reals.

  There are 100000 nodes and 700000 messages. Message e is read from the node its source word names (a negative
  word wrapped once, then clamped into range) and is delivered to node i exactly when its target word, read as a
  signed integer, is i. The coefficient of a node is the inverse square root of the number of messages delivered to
  it, or zero when there are none: a nonnegative real.

  One layer, from features f, weights w and a bias:
    * FOLDED: the dense product of each row is multiplied by the row's coefficient, the scaled rows are summed over
      the messages delivered to node i, the sum is multiplied by the coefficient of i, the bias is added and the
      result is rectified;
    * PER MESSAGE: each delivered message carries the dense product of its source row times the product of the
      coefficients of its source and of its target; the messages are summed, the bias added, the result rectified.
  The two agree for arbitrary, possibly infinite, features: a message delivered to i has target i, and a
  nonnegative finite factor goes through a finite sum. The network is two such layers followed by a dense head.
-/
import proofs.«141033_j88948772700968_2_alg».proof.Proof.LibGcnFolded
import proofs.«141033_j88948772700968_2_alg».proof.Proof.LibGcnWords

noncomputable section

open scoped BigOperators

namespace Cert.Net

open Idealize.ShloMosaic Idealize.ShloMosaic.ValueIdx Cert.GcnRead

/-- The number of nodes. -/
abbrev N : ℕ := 100000
/-- The number of messages: the edges and one self-loop per node. -/
abbrev E : ℕ := 700000
/-- A vector of 32-bit words, one per message. -/
abbrev Words : Type := IVec ⟨1, ![E]⟩ 32

theorem hN : 0 < N := by norm_num

/-- The zero word at every message. -/
def zW : Words := fun _ => 0#32
/-- The number of nodes, as a word, at every message. -/
def nW : Words := fun _ => 100000#32

/-- The node a word names when a row is read at it. -/
def nodeOf (v : Words) (e : Fin E) : Fin N := node hN v zW nW e

/-- The messages delivered to node i. -/
def into (d : Words) (i : Fin N) : Finset (Fin E) := Finset.univ.filter fun e => lands d e i

/-- A message delivered to node i names node i when a row is read at its target word. -/
theorem nodeOf_of_mem (d : Words) (i : Fin N) (e : Fin E) (h : e ∈ into d i) : nodeOf d e = i :=
  node_of_lands hN d zW nW e i rfl (Finset.mem_filter.mp h).2

section Layer

variable {a b : ℕ} (s d : Words) (f : Fin N → Fin a → EReal) (w : Fin a → Fin b → EReal) (bias : Fin b → EReal)

/-- The dense product of a row, times the row's coefficient. -/
def scaled (i : Fin N) (j : Fin b) : EReal := (∑ k, f i k * w k j) * coef d i

/-- Rows summed over the messages delivered to node i, from zero. -/
def gathered (g : Fin N → Fin b → EReal) (i : Fin N) (j : Fin b) : EReal := 0 + ∑ e ∈ into d i, g (nodeOf s e) j

/-- One layer, FOLDED. -/
def foldedLayer (i : Fin N) (j : Fin b) : EReal := max (gathered s d (scaled d f w) i j * coef d i + bias j) 0

/-- One layer, PER MESSAGE. -/
def messageLayer (i : Fin N) (j : Fin b) : EReal :=
  max ((0 + ∑ e ∈ into d i, (∑ k, f (nodeOf s e) k * w k j) * (coef d (nodeOf s e) * coef d (nodeOf d e))) + bias j) 0

/-- The two evaluations of a layer agree. -/
theorem foldedLayer_eq : foldedLayer s d f w bias = messageLayer s d f w bias := by
  funext i j
  unfold foldedLayer messageLayer gathered scaled
  rw [mul_comm _ (coef d i),
    Cert.GcnSpec.aggregate_law (into d i) (coef d i) (coef_bounds d i).1 (coef_bounds d i).2
      (fun e => ∑ k, f (nodeOf s e) k * w k j) (fun e => coef d (nodeOf s e)) (fun e => coef d (nodeOf d e))
      (fun e he => by rw [nodeOf_of_mem d i e he])]

end Layer

section Network

variable (s d : Words) (x : Fin N → Fin 128 → EReal) (w1 : Fin 128 → Fin 64 → EReal) (b1 : Fin 64 → EReal)
  (w2 : Fin 64 → Fin 32 → EReal) (b2 : Fin 32 → EReal) (wc : Fin 32 → EReal) (bc : EReal)

/-- The dense head. -/
def head (h : Fin N → Fin 32 → EReal) (i : Fin N) : EReal := (∑ k, h i k * wc k) + bc

/-- THE FOLDED NETWORK. -/
def foldedNet (i : Fin N) : EReal := head wc bc (foldedLayer s d (foldedLayer s d x w1 b1) w2 b2) i

/-- THE PER-MESSAGE NETWORK. -/
def messageNet (i : Fin N) : EReal := head wc bc (messageLayer s d (messageLayer s d x w1 b1) w2 b2) i

/-- THE TWO NETWORKS AGREE. -/
theorem foldedNet_eq : foldedNet s d x w1 b1 w2 b2 wc bc = messageNet s d x w1 b1 w2 b2 wc bc := by
  funext i
  unfold foldedNet messageNet
  rw [foldedLayer_eq, foldedLayer_eq]

end Network

end Cert.Net

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.KPay.lean ====
/-
  What the three kernel bodies compute, entry by entry, on the extended reals.

  Every change of float format is the identity there, a product into the zero accumulator is the plain sum over the
  shared coordinate, a column spread along its rows reads the column's entry of the row, and a one-row bias spread
  over the rows reads the bias of the column. So, with r the row of the block and c the column:
    * layer 1 stores (∑ k, x[r,k]·w[k,c]) · dinv[r];
    * layer 2 stores (∑ k, max(agg[r,k]·dinv[r] + b[k], 0)·w[k,c]) · dinv[r];
    * the head stores (∑ k, max(agg[r,k]·dinv[r] + b[k], 0)·w[k,0]) + bc.
-/
import proofs.«141033_j88948772700968_2_alg».proof.Proof.Gen.KernelIdeal.Skeleton
import proofs.«141033_j88948772700968_2_alg».proof.Proof.LibPlainDot
import proofs.«141033_j88948772700968_2_alg».proof.Proof.LibKeepdims
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The rectified, biased, rescaled aggregate that layers 2 and 3 feed to their product: entry (r, k). -/
def act {a : ℕ} (agg : (⟨2, ![4000, a]⟩ : Shape).Idx → EReal) (dv : (⟨2, ![4000, 1]⟩ : Shape).Idx → EReal)
    (bias : (⟨2, ![1, a]⟩ : Shape).Idx → EReal) (r : Fin 4000) (k : Fin a) : EReal :=
  max (agg (ix2 r k) * dv (ix2 r (0 : Fin 1)) + bias (ix2 (0 : Fin 1) k)) 0

/-- Layer 1's stored block at (r, c). -/
theorem pay0_apply (x0 : FVec Ideal S4000x128 .f32) (x1 : FVec Ideal S128x64 .f32) (x2 : FVec Ideal S4000x1 .f32)
    (r : Fin 4000) (c : Fin 64) :
    k0_pay1 (F := Ideal) x0 x1 x2 (ix2 r c) = (∑ k : Fin 128, x0 (ix2 r k) * x1 (ix2 k c)) * x2 (ix2 r (0 : Fin 1)) := by
  unfold k0_pay1
  refine congrArg₂ (fun u v : EReal => u * v)
    (PlainDot.matmul_zero_apply 4000 128 64 none (truncf .bf16 x0 bitsLt_bf16_f32) (truncf .bf16 x1 bitsLt_bf16_f32) r c) ?_
  refine (LibKeepdims.broadcastTo_a1_ab_apply _ broadcasts_S4000x1_S4000x64 r c).trans ?_
  exact congrFun (shapeCast_self x2 shapeCasts_S4000x1_S4000x1) _

/-- The activation a body forms from its aggregate block, its coefficient column and its bias row, at (r, k). -/
theorem act_apply {a : ℕ} (agg : FVec Ideal ⟨2, ![4000, a]⟩ .f32) (dv : FVec Ideal ⟨2, ![4000, 1]⟩ .f32)
    (bias : FVec Ideal ⟨2, ![1, a]⟩ .f32)
    (h1 : (⟨2, ![4000, a]⟩ : Shape).ShapeCasts ⟨2, ![4000, a]⟩) (h2 : (⟨2, ![4000, 1]⟩ : Shape).ShapeCasts ⟨2, ![4000, 1]⟩)
    (h3 : (⟨2, ![4000, 1]⟩ : Shape).Broadcasts ⟨2, ![4000, a]⟩) (h4 : (⟨2, ![1, a]⟩ : Shape).ShapeCasts ⟨2, ![1, a]⟩)
    (h5 : (⟨2, ![1, a]⟩ : Shape).Broadcasts ⟨2, ![4000, a]⟩) (r : Fin 4000) (k : Fin a) :
    maximumf (addf (mulf (shapeCast ⟨2, ![4000, a]⟩ agg h1) (broadcastTo ⟨2, ![4000, a]⟩ (shapeCast ⟨2, ![4000, 1]⟩ dv h2) h3))
        (broadcastTo ⟨2, ![4000, a]⟩ (shapeCast ⟨2, ![1, a]⟩ bias h4) h5))
      (broadcast ⟨2, ![4000, a]⟩ (Scalar.ofBits (F := Ideal) .f32 0x00000000#32)) (ix2 r k)
      = act agg dv bias r k := by
  rw [shapeCast_self, shapeCast_self, shapeCast_self]
  show max (agg (ix2 r k) * broadcastTo ⟨2, ![4000, a]⟩ dv h3 (ix2 r k) + broadcastTo ⟨2, ![4000, a]⟩ bias h5 (ix2 r k))
      (Ideal.ofBits .f32 0x00000000#32) = _
  rw [LibKeepdims.broadcastTo_a1_ab_apply, broadcastTo_1b_ab_apply, Ideal.ofBits_zero_f32]
  rfl

/-- Layer 2's stored block at (r, c). -/
theorem pay1_apply (x0 : FVec Ideal S4000x64 .f32) (x1 : FVec Ideal S4000x1 .f32) (x2 : FVec Ideal S1x64 .f32)
    (x3 : FVec Ideal S64x32 .f32) (r : Fin 4000) (c : Fin 32) :
    k1_pay1 (F := Ideal) x0 x1 x2 x3 x1 (ix2 r c)
      = (∑ k : Fin 64, act x0 x1 x2 r k * x3 (ix2 k c)) * x1 (ix2 r (0 : Fin 1)) := by
  unfold k1_pay1
  refine congrArg₂ (fun u v : EReal => u * v) ?_ ?_
  · refine (PlainDot.matmul_zero_apply 4000 64 32 none _ (truncf .bf16 x3 bitsLt_bf16_f32) r c).trans ?_
    refine Finset.sum_congr rfl fun k _ => congrArg (fun u : EReal => u * x3 (ix2 k c)) ?_
    exact act_apply x0 x1 x2 shapeCasts_S4000x64_S4000x64 shapeCasts_S4000x1_S4000x1 broadcasts_S4000x1_S4000x64
      shapeCasts_S1x64_S1x64 broadcasts_S1x64_S4000x64 r k
  · refine (LibKeepdims.broadcastTo_a1_ab_apply _ broadcasts_S4000x1_S4000x32 r c).trans ?_
    exact congrFun (shapeCast_self x1 shapeCasts_S4000x1_S4000x1) _

/-- The head's stored block at (r, 0). -/
theorem pay2_apply (x0 : FVec Ideal S4000x32 .f32) (x1 : FVec Ideal S4000x1 .f32) (x2 : FVec Ideal S1x32 .f32)
    (x3 : FVec Ideal S32x1 .f32) (x4 : FVec Ideal S1x1 .f32) (r : Fin 4000) (c : Fin 1) :
    k2_pay1 (F := Ideal) x0 x1 x2 x3 x4 (ix2 r c)
      = (∑ k : Fin 32, act x0 x1 x2 r k * x3 (ix2 k c)) + x4 (ix2 (0 : Fin 1) c) := by
  unfold k2_pay1
  refine congrArg₂ (fun u v : EReal => u + v) ?_ ?_
  · refine (PlainDot.matmul_zero_apply 4000 32 1 none _ (truncf .bf16 x3 bitsLt_bf16_f32) r c).trans ?_
    refine Finset.sum_congr rfl fun k _ => congrArg (fun u : EReal => u * x3 (ix2 k c)) ?_
    exact act_apply x0 x1 x2 shapeCasts_S4000x32_S4000x32 shapeCasts_S4000x1_S4000x1 broadcasts_S4000x1_S4000x32
      shapeCasts_S1x32_S1x32 broadcasts_S1x32_S4000x32 r k
  · refine (broadcastTo_1b_ab_apply _ broadcasts_S1x1_S4000x1 r c).trans ?_
    exact congrFun (shapeCast_self x4 shapeCasts_S1x1_S1x1) _

end Cert.KernelIdeal.Pay

end
-- ==== Proof.KReg0.lean ====
/-
  The array the first kernel leaves, as one function of the arrays it finds.

  The kernel runs over 25 blocks of 4000 rows. At block t it reads rows 4000·t … 4000·t + 3999 of the features and of
  the coefficient column, the whole weight matrix, and writes the same rows of its result. Entry (R, c) of the result is
      (∑ k, x[R, k] · w[k, c]) · dinv[R]
  whatever block R falls in; the 25 blocks cover all 100000 rows, so the whole result array is that function.
-/
import proofs.«141033_j88948772700968_2_alg».proof.Proof.Gen.KernelIdeal.Frame
import proofs.«141033_j88948772700968_2_alg».proof.Proof.KPay
import Idealize.ShloMosaic.Lib.Pipeline.Value

set_option maxRecDepth 16384

noncomputable section

open scoped BigOperators

namespace Cert.KernelIdeal.Reg0

open Cert.KernelIdeal Cert.KernelIdeal.Gen Idealize.ShloMosaic Idealize.ShloMosaic.TcCoe Idealize.ShloMosaic.ValueIdx
open Idealize.SL.Sem
open Idealize.ShloMosaic.Pipeline (Dat)

/-- Entry (R, c) of the first dense stage with the row's coefficient folded in. -/
def dense (X : S100000x128.Idx → EReal) (W : S128x64.Idx → EReal) (Dv : S100000x1.Idx → EReal)
    (R : Fin 100000) (c : Fin 64) : EReal :=
  (∑ k : Fin 128, X (ix2 R k) * W (ix2 k c)) * Dv (ix2 R (0 : Fin 1))

/-- The same as an array. -/
def denseArr (X : S100000x128.Idx → EReal) (W : S128x64.Idx → EReal) (Dv : S100000x1.Idx → EReal) :
    S100000x64.Idx → EReal := fun i => dense X W Dv (i 0) (i 1)

/-- One block: if the loaded blocks are rows b·4000 … of the arrays (and the whole weight matrix), the stored block
    at y is the function at the array index i that y is embedded at. -/
theorem block_eq (X : S100000x128.Idx → EReal) (W : S128x64.Idx → EReal) (Dv : S100000x1.Idx → EReal)
    (x0 : FVec Ideal S4000x128 .f32) (x1 : FVec Ideal S128x64 .f32) (x2 : FVec Ideal S4000x1 .f32) (b : ℕ)
    (h0 : ∀ (r : Fin 4000) (k : Fin 128) (R : Fin 100000), R.val = b * 4000 + r.val → x0 (ix2 r k) = X (ix2 R k))
    (h1 : ∀ (k : Fin 128) (q : Fin 64), x1 (ix2 k q) = W (ix2 k q))
    (h2 : ∀ (r : Fin 4000) (R : Fin 100000), R.val = b * 4000 + r.val → x2 (ix2 r (0 : Fin 1)) = Dv (ix2 R (0 : Fin 1)))
    (y : S4000x64.Idx) (i : S100000x64.Idx) (hi0 : (i 0).val = b * 4000 + (y 0).val) (hi1 : (i 1).val = (y 1).val) :
    k0_pay1 (F := Ideal) x0 x1 x2 y = denseArr X W Dv i := by
  obtain ⟨r, q, rfl⟩ : ∃ (r : Fin 4000) (q : Fin 64), y = ix2 r q := ⟨y 0, y 1, eq_ix2 y⟩
  obtain ⟨R, Q, rfl⟩ : ∃ (R : Fin 100000) (Q : Fin 64), i = ix2 R Q := ⟨i 0, i 1, eq_ix2 i⟩
  have hR : R.val = b * 4000 + r.val := hi0
  have hQ : Q = q := Fin.ext hi1
  subst hQ
  rw [Pay.pay0_apply]
  show _ = (∑ k : Fin 128, X (ix2 R k) * W (ix2 k Q)) * Dv (ix2 R (0 : Fin 1))
  rw [h2 r R hR]
  exact congrArg (fun u : EReal => u * Dv (ix2 R (0 : Fin 1))) (Finset.sum_congr rfl fun k _ => by rw [h0 r k R hR, h1])

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row blocks move with the point, every other block index is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point t writes back is block t of the function of the arrays the region finds. -/
theorem flushed_eq (c : Dev nD) (t : Fin cfg0.N) :
    (dat0 V c).flushed 3 t
      = ((cfg0.win 3).blk t).view.read (Elt Ideal) (denseArr (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x64) hz, View.ld_unit_zero (S := S4000x1) hz]
  obtain ⟨e0, e1, e2, e3, e4, e5, e6, e7⟩ := idx_facts t
  funext j
  refine block_eq (V c main_arg0) (V c main_arg2) (V c main_v15) (iblk0 V c 0 t) (iblk0 V c 1 t) (iblk0 V c 2 t)
    (win0_3.index t (0 : Fin 2)) ?_ ?_ ?_ ((cfg0.win 3).xinj (grid0.coords t) j) (((cfg0.win 3).blk t).view.emb j) ?_ ?_
  · intro r k R hR
    show V c main_arg0 (((cfg0.win 0).blk t).view.emb (ix2 r k)) = V c main_arg0 (ix2 R k)
    refine congrArg _ (funext fun a => Fin.ext ?_)
    match a with
    | ⟨0, _⟩ => show win0_0.index t (0 : Fin 2) * 4000 + 1 * r.val = R.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · intro r R hR
    show V c main_v15 (((cfg0.win 2).blk t).view.emb (ix2 r (0 : Fin 1))) = V c main_v15 (ix2 R (0 : Fin 1))
    refine congrArg _ (funext fun a => Fin.ext ?_)
    match a with
    | ⟨0, _⟩ => show win0_2.index t (0 : Fin 2) * 4000 + 1 * r.val = R.val; omega
    | ⟨1, _⟩ => show win0_2.index t (1 : Fin 2) * 1 + 1 * 0 = 0; omega
  · show win0_3.index t (0 : Fin 2) * 4000 + 1 * (j 0).val = win0_3.index t (0 : Fin 2) * 4000 + (j 0).val; omega
  · show win0_3.index t (1 : Fin 2) * 64 + 1 * (j 1).val = (j 1).val; omega

/-- An index of the result array is in point t's block iff each coordinate is in the block's range on its axis. -/
theorem mem_blk (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v16).slice (win0_3.rect t)).set ↔ _
  rw [View.set_slice_whole, Rect.mem_set_unit]
  exact Iff.rfl

/-- Every row lies in the block of the point numbered by the row divided by 4000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 25 := N_0
  let t : Fin cfg0.N := ⟨(i 0).val / 4000, by rw [hN]; omega⟩
  obtain ⟨e0, e1, e2, e3, e4, e5, e6, e7⟩ := idx_facts t
  have ht : t.val = (i 0).val / 4000 := rfl
  refine ⟨t, flush0_3 t, ?_⟩
  rw [mem_blk]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

/-- THE RESULT ARRAY of the first kernel, from the arrays it finds. -/
theorem arr_eq (c : Dev nD) :
    (dat0 V c).arrAt 3 cfg0.N = denseArr (V c main_arg0) (V c main_arg2) (V c main_v15) :=
  (dat0 V c).arrAt_eq_of_cover 3 _ (fun t _ => flushed_eq V c t) cover

end Region

end Cert.KernelIdeal.Reg0

end
-- ==== Proof.KReg1.lean ====
/-
  The array the second kernel leaves, as one function of the arrays it finds.

  The kernel runs over 25 blocks of 4000 rows. At block t it reads rows 4000·t … 4000·t + 3999 of the first aggregate and
  of the coefficient column, the whole bias row and the whole weight matrix, and writes the same rows of its result.
  Entry (R, c) of the result is
      (∑ k, max(agg[R, k] · dinv[R] + b[k], 0) · w[k, c]) · dinv[R]
  whatever block R falls in; the 25 blocks cover all 100000 rows, so the whole result array is that function.
-/
import proofs.«141033_j88948772700968_2_alg».proof.Proof.Gen.KernelIdeal.Frame
import proofs.«141033_j88948772700968_2_alg».proof.Proof.KPay
import Idealize.ShloMosaic.Lib.Pipeline.Value

set_option maxRecDepth 16384

noncomputable section

open scoped BigOperators

namespace Cert.KernelIdeal.Reg1

open Cert.KernelIdeal Cert.KernelIdeal.Gen Idealize.ShloMosaic Idealize.ShloMosaic.TcCoe Idealize.ShloMosaic.ValueIdx
open Idealize.SL.Sem
open Idealize.ShloMosaic.Pipeline (Dat)

/-- Entry (R, c) of the second dense stage: the rescaled, biased, rectified aggregate of row R times the weights, with the
    row's coefficient folded in. -/
def dense (A : S100000x64.Idx → EReal) (Dv : S100000x1.Idx → EReal) (B : S1x64.Idx → EReal) (W : S64x32.Idx → EReal)
    (R : Fin 100000) (c : Fin 32) : EReal :=
  (∑ k : Fin 64, max (A (ix2 R k) * Dv (ix2 R (0 : Fin 1)) + B (ix2 (0 : Fin 1) k)) 0 * W (ix2 k c)) * Dv (ix2 R (0 : Fin 1))

/-- The same as an array. -/
def denseArr (A : S100000x64.Idx → EReal) (Dv : S100000x1.Idx → EReal) (B : S1x64.Idx → EReal) (W : S64x32.Idx → EReal) :
    S100000x32.Idx → EReal := fun i => dense A Dv B W (i 0) (i 1)

/-- One block: if the loaded blocks are rows b·4000 … of the aggregate and of the coefficient column (and the whole bias
    row and weight matrix), the stored block at y is the function at the array index i that y is embedded at. -/
theorem block_eq (A : S100000x64.Idx → EReal) (Dv : S100000x1.Idx → EReal) (B : S1x64.Idx → EReal) (W : S64x32.Idx → EReal)
    (x0 : FVec Ideal S4000x64 .f32) (x1 : FVec Ideal S4000x1 .f32) (x2 : FVec Ideal S1x64 .f32) (x3 : FVec Ideal S64x32 .f32) (b : ℕ)
    (h0 : ∀ (r : Fin 4000) (k : Fin 64) (R : Fin 100000), R.val = b * 4000 + r.val → x0 (ix2 r k) = A (ix2 R k))
    (h1 : ∀ (r : Fin 4000) (R : Fin 100000), R.val = b * 4000 + r.val → x1 (ix2 r (0 : Fin 1)) = Dv (ix2 R (0 : Fin 1)))
    (h2 : ∀ (k : Fin 64), x2 (ix2 (0 : Fin 1) k) = B (ix2 (0 : Fin 1) k))
    (h3 : ∀ (k : Fin 64) (q : Fin 32), x3 (ix2 k q) = W (ix2 k q))
    (y : S4000x32.Idx) (i : S100000x32.Idx) (hi0 : (i 0).val = b * 4000 + (y 0).val) (hi1 : (i 1).val = (y 1).val) :
    k1_pay1 (F := Ideal) x0 x1 x2 x3 x1 y = denseArr A Dv B W i := by
  obtain ⟨r, q, rfl⟩ : ∃ (r : Fin 4000) (q : Fin 32), y = ix2 r q := ⟨y 0, y 1, eq_ix2 y⟩
  obtain ⟨R, Q, rfl⟩ : ∃ (R : Fin 100000) (Q : Fin 32), i = ix2 R Q := ⟨i 0, i 1, eq_ix2 i⟩
  have hR : R.val = b * 4000 + r.val := hi0
  have hQ : Q = q := Fin.ext hi1
  subst hQ
  rw [Pay.pay1_apply]
  show _ = (∑ k : Fin 64, max (A (ix2 R k) * Dv (ix2 R (0 : Fin 1)) + B (ix2 (0 : Fin 1) k)) 0 * W (ix2 k Q)) * Dv (ix2 R (0 : Fin 1))
  unfold Pay.act
  rw [h1 r R hR]
  exact congrArg (fun u : EReal => u * Dv (ix2 R (0 : Fin 1))) (Finset.sum_congr rfl fun k _ => by rw [h0 r k R hR, h2, h3])

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row blocks move with the point, every other block index is 0. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the function of the arrays the region finds. -/
theorem flushed_eq (c : Dev nD) (t : Fin cfg1.N) :
    (dat1 V c).flushed 4 t
      = ((cfg1.win 4).blk t).view.read (Elt Ideal) (denseArr (V c main_v27) (V c main_v15) (V c main_v28) (V c main_arg4)) := by
  show (cfg1.win 4).cut (grid1.coords t) ((dat1 V c).after 4 t) = _
  rw [after1_4]
  unfold out1_4
  rw [View.canon_unit_zero hz]
  simp only [View.ld_unit_zero (S := S4000x64) hz, View.ld_unit_zero (S := S4000x1) hz, View.ld_unit_zero (S := S1x64) hz,
    View.ld_unit_zero (S := S64x32) hz]
  obtain ⟨e0, e1, e2, e3, e4, e5, e6, e7, e8, e9⟩ := idx_facts t
  funext j
  refine block_eq (V c main_v27) (V c main_v15) (V c main_v28) (V c main_arg4) (iblk1 V c 0 t) (iblk1 V c 1 t) (iblk1 V c 2 t) (iblk1 V c 3 t)
    (win1_4.index t (0 : Fin 2)) ?_ ?_ ?_ ?_ ((cfg1.win 4).xinj (grid1.coords t) j) (((cfg1.win 4).blk t).view.emb j) ?_ ?_
  · intro r k R hR
    show V c main_v27 (((cfg1.win 0).blk t).view.emb (ix2 r k)) = V c main_v27 (ix2 R k)
    refine congrArg _ (funext fun a => Fin.ext ?_)
    match a with
    | ⟨0, _⟩ => show win1_0.index t (0 : Fin 2) * 4000 + 1 * r.val = R.val; omega
    | ⟨1, _⟩ => show win1_0.index t (1 : Fin 2) * 64 + 1 * k.val = k.val; omega
  · intro r R hR
    show V c main_v15 (((cfg1.win 1).blk t).view.emb (ix2 r (0 : Fin 1))) = V c main_v15 (ix2 R (0 : Fin 1))
    refine congrArg _ (funext fun a => Fin.ext ?_)
    match a with
    | ⟨0, _⟩ => show win1_1.index t (0 : Fin 2) * 4000 + 1 * r.val = R.val; omega
    | ⟨1, _⟩ => show win1_1.index t (1 : Fin 2) * 1 + 1 * 0 = 0; omega
  · intro k
    show V c main_v28 (((cfg1.win 2).blk t).view.emb (ix2 (0 : Fin 1) k)) = V c main_v28 (ix2 (0 : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · intro k q
    show V c main_arg4 (((cfg1.win 3).blk t).view.emb (ix2 k q)) = V c main_arg4 (ix2 k q)
    refine congrArg _ (funext fun a => Fin.ext ?_)
    match a with
    | ⟨0, _⟩ => show win1_3.index t (0 : Fin 2) * 64 + 1 * k.val = k.val; omega
    | ⟨1, _⟩ => show win1_3.index t (1 : Fin 2) * 32 + 1 * q.val = q.val; omega
  · show win1_4.index t (0 : Fin 2) * 4000 + 1 * (j 0).val = win1_4.index t (0 : Fin 2) * 4000 + (j 0).val; omega
  · show win1_4.index t (1 : Fin 2) * 32 + 1 * (j 1).val = (j 1).val; omega

/-- An index of the result array is in point t's block iff each coordinate is in the block's range on its axis. -/
theorem mem_blk (t : Fin cfg1.N) (i : S100000x32.Idx) :
    i ∈ ((cfg1.win 4).blk t).view.set ↔ ∀ a : Fin 2, win1_4.index t a * S4000x32.size a ≤ (i a).val
      ∧ (i a).val < win1_4.index t a * S4000x32.size a + S4000x32.size a := by
  show i ∈ ((View.whole main_v29).slice (win1_4.rect t)).set ↔ _
  rw [View.set_slice_whole, Rect.mem_set_unit]
  exact Iff.rfl

/-- Every row lies in the block of the point numbered by the row divided by 4000. -/
theorem cover (i : S100000x32.Idx) : ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 25 := N_1
  let t : Fin cfg1.N := ⟨(i 0).val / 4000, by rw [hN]; omega⟩
  obtain ⟨e0, e1, e2, e3, e4, e5, e6, e7, e8, e9⟩ := idx_facts t
  have ht : t.val = (i 0).val / 4000 := rfl
  refine ⟨t, flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 32 ≤ (i 1).val ∧ (i 1).val < win1_4.index t (1 : Fin 2) * 32 + 32
    omega

/-- THE RESULT ARRAY of the second kernel, from the arrays it finds. -/
theorem arr_eq (c : Dev nD) :
    (dat1 V c).arrAt 4 cfg1.N = denseArr (V c main_v27) (V c main_v15) (V c main_v28) (V c main_arg4) :=
  (dat1 V c).arrAt_eq_of_cover 4 _ (fun t _ => flushed_eq V c t) cover

end Region

end Cert.KernelIdeal.Reg1

end
-- ==== Proof.KReg2.lean ====
/-
  The array the head kernel leaves, as one function of the arrays it finds.

  The kernel runs over 25 blocks of 4000 rows. At block t it reads rows 4000·t … 4000·t + 3999 of the second aggregate
  and of the coefficient column, the whole bias row, the whole weight column and the head's bias, and writes the same
  rows of its one-column result. Entry (R, 0) of the result is
      (∑ k, max(agg[R, k] · dinv[R] + b[k], 0) · w[k, 0]) + bc
  whatever block R falls in; the 25 blocks cover all 100000 rows, so the whole result array is that function.
-/
import proofs.«141033_j88948772700968_2_alg».proof.Proof.Gen.KernelIdeal.Frame
import proofs.«141033_j88948772700968_2_alg».proof.Proof.KPay
import Idealize.ShloMosaic.Lib.Pipeline.Value

set_option maxRecDepth 16384

noncomputable section

open scoped BigOperators

namespace Cert.KernelIdeal.Reg2

open Cert.KernelIdeal Cert.KernelIdeal.Gen Idealize.ShloMosaic Idealize.ShloMosaic.TcCoe Idealize.ShloMosaic.ValueIdx
open Idealize.SL.Sem
open Idealize.ShloMosaic.Pipeline (Dat)

/-- Entry (R, c) of the head: the rescaled, biased, rectified aggregate of row R times the weights, plus the head's bias. -/
def dense (A : S100000x32.Idx → EReal) (Dv : S100000x1.Idx → EReal) (B : S1x32.Idx → EReal) (W : S32x1.Idx → EReal)
    (C : S1x1.Idx → EReal) (R : Fin 100000) (c : Fin 1) : EReal :=
  (∑ k : Fin 32, max (A (ix2 R k) * Dv (ix2 R (0 : Fin 1)) + B (ix2 (0 : Fin 1) k)) 0 * W (ix2 k c)) + C (ix2 (0 : Fin 1) c)

/-- The same as an array. -/
def denseArr (A : S100000x32.Idx → EReal) (Dv : S100000x1.Idx → EReal) (B : S1x32.Idx → EReal) (W : S32x1.Idx → EReal)
    (C : S1x1.Idx → EReal) : S100000x1.Idx → EReal := fun i => dense A Dv B W C (i 0) (i 1)

/-- One block: if the loaded blocks are rows b·4000 … of the aggregate and of the coefficient column (and the whole bias
    row, weight column and head bias), the stored block at y is the function at the array index i that y is embedded at. -/
theorem block_eq (A : S100000x32.Idx → EReal) (Dv : S100000x1.Idx → EReal) (B : S1x32.Idx → EReal) (W : S32x1.Idx → EReal)
    (C : S1x1.Idx → EReal)
    (x0 : FVec Ideal S4000x32 .f32) (x1 : FVec Ideal S4000x1 .f32) (x2 : FVec Ideal S1x32 .f32) (x3 : FVec Ideal S32x1 .f32)
    (x4 : FVec Ideal S1x1 .f32) (b : ℕ)
    (h0 : ∀ (r : Fin 4000) (k : Fin 32) (R : Fin 100000), R.val = b * 4000 + r.val → x0 (ix2 r k) = A (ix2 R k))
    (h1 : ∀ (r : Fin 4000) (R : Fin 100000), R.val = b * 4000 + r.val → x1 (ix2 r (0 : Fin 1)) = Dv (ix2 R (0 : Fin 1)))
    (h2 : ∀ (k : Fin 32), x2 (ix2 (0 : Fin 1) k) = B (ix2 (0 : Fin 1) k))
    (h3 : ∀ (k : Fin 32) (q : Fin 1), x3 (ix2 k q) = W (ix2 k q))
    (h4 : ∀ (q : Fin 1), x4 (ix2 (0 : Fin 1) q) = C (ix2 (0 : Fin 1) q))
    (y : S4000x1.Idx) (i : S100000x1.Idx) (hi0 : (i 0).val = b * 4000 + (y 0).val) (hi1 : (i 1).val = (y 1).val) :
    k2_pay1 (F := Ideal) x0 x1 x2 x3 x4 y = denseArr A Dv B W C i := by
  obtain ⟨r, q, rfl⟩ : ∃ (r : Fin 4000) (q : Fin 1), y = ix2 r q := ⟨y 0, y 1, eq_ix2 y⟩
  obtain ⟨R, Q, rfl⟩ : ∃ (R : Fin 100000) (Q : Fin 1), i = ix2 R Q := ⟨i 0, i 1, eq_ix2 i⟩
  have hR : R.val = b * 4000 + r.val := hi0
  have hQ : Q = q := Fin.ext hi1
  subst hQ
  rw [Pay.pay2_apply]
  show _ = (∑ k : Fin 32, max (A (ix2 R k) * Dv (ix2 R (0 : Fin 1)) + B (ix2 (0 : Fin 1) k)) 0 * W (ix2 k Q)) + C (ix2 (0 : Fin 1) Q)
  unfold Pay.act
  rw [h4]
  exact congrArg (fun u : EReal => u + C (ix2 (0 : Fin 1) Q)) (Finset.sum_congr rfl fun k _ => by rw [h0 r k R hR, h1 r R hR, h2, h3])

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the row blocks move with the point, every other block index is 0. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the function of the arrays the region finds. -/
theorem flushed_eq (c : Dev nD) (t : Fin cfg2.N) :
    (dat2 V c).flushed 5 t
      = ((cfg2.win 5).blk t).view.read (Elt Ideal)
          (denseArr (V c main_v40) (V c main_v15) (V c main_v41) (V c main_arg6) (V c main_v42)) := by
  show (cfg2.win 5).cut (grid2.coords t) ((dat2 V c).after 5 t) = _
  rw [after2_5]
  unfold out2_5
  rw [View.canon_unit_zero hz]
  simp only [View.ld_unit_zero (S := S4000x32) hz, View.ld_unit_zero (S := S4000x1) hz, View.ld_unit_zero (S := S1x32) hz,
    View.ld_unit_zero (S := S32x1) hz, View.ld_unit_zero (S := S1x1) hz]
  obtain ⟨e0, e1, e2, e3, e4, e5, e6, e7, e8, e9, e10, e11⟩ := idx_facts t
  funext j
  refine block_eq (V c main_v40) (V c main_v15) (V c main_v41) (V c main_arg6) (V c main_v42)
    (iblk2 V c 0 t) (iblk2 V c 1 t) (iblk2 V c 2 t) (iblk2 V c 3 t) (iblk2 V c 4 t)
    (win2_5.index t (0 : Fin 2)) ?_ ?_ ?_ ?_ ?_ ((cfg2.win 5).xinj (grid2.coords t) j) (((cfg2.win 5).blk t).view.emb j) ?_ ?_
  · intro r k R hR
    show V c main_v40 (((cfg2.win 0).blk t).view.emb (ix2 r k)) = V c main_v40 (ix2 R k)
    refine congrArg _ (funext fun a => Fin.ext ?_)
    match a with
    | ⟨0, _⟩ => show win2_0.index t (0 : Fin 2) * 4000 + 1 * r.val = R.val; omega
    | ⟨1, _⟩ => show win2_0.index t (1 : Fin 2) * 32 + 1 * k.val = k.val; omega
  · intro r R hR
    show V c main_v15 (((cfg2.win 1).blk t).view.emb (ix2 r (0 : Fin 1))) = V c main_v15 (ix2 R (0 : Fin 1))
    refine congrArg _ (funext fun a => Fin.ext ?_)
    match a with
    | ⟨0, _⟩ => show win2_1.index t (0 : Fin 2) * 4000 + 1 * r.val = R.val; omega
    | ⟨1, _⟩ => show win2_1.index t (1 : Fin 2) * 1 + 1 * 0 = 0; omega
  · intro k
    show V c main_v41 (((cfg2.win 2).blk t).view.emb (ix2 (0 : Fin 1) k)) = V c main_v41 (ix2 (0 : Fin 1) k)
    refine congrArg _ (funext fun a => Fin.ext ?_)
    match a with
    | ⟨0, _⟩ => show win2_2.index t (0 : Fin 2) * 1 + 1 * 0 = 0; omega
    | ⟨1, _⟩ => show win2_2.index t (1 : Fin 2) * 32 + 1 * k.val = k.val; omega
  · intro k q
    show V c main_arg6 (((cfg2.win 3).blk t).view.emb (ix2 k q)) = V c main_arg6 (ix2 k q)
    refine congrArg _ (funext fun a => Fin.ext ?_)
    match a with
    | ⟨0, _⟩ => show win2_3.index t (0 : Fin 2) * 32 + 1 * k.val = k.val; omega
    | ⟨1, _⟩ => show win2_3.index t (1 : Fin 2) * 1 + 1 * q.val = q.val; omega
  · intro q
    show V c main_v42 (((cfg2.win 4).blk t).view.emb (ix2 (0 : Fin 1) q)) = V c main_v42 (ix2 (0 : Fin 1) q)
    refine congrArg _ (funext fun a => Fin.ext ?_)
    match a with
    | ⟨0, _⟩ => show win2_4.index t (0 : Fin 2) * 1 + 1 * 0 = 0; omega
    | ⟨1, _⟩ => show win2_4.index t (1 : Fin 2) * 1 + 1 * q.val = q.val; omega
  · show win2_5.index t (0 : Fin 2) * 4000 + 1 * (j 0).val = win2_5.index t (0 : Fin 2) * 4000 + (j 0).val; omega
  · show win2_5.index t (1 : Fin 2) * 1 + 1 * (j 1).val = (j 1).val; omega

/-- An index of the result array is in point t's block iff each coordinate is in the block's range on its axis. -/
theorem mem_blk (t : Fin cfg2.N) (i : S100000x1.Idx) :
    i ∈ ((cfg2.win 5).blk t).view.set ↔ ∀ a : Fin 2, win2_5.index t a * S4000x1.size a ≤ (i a).val
      ∧ (i a).val < win2_5.index t a * S4000x1.size a + S4000x1.size a := by
  show i ∈ ((View.whole main_v43).slice (win2_5.rect t)).set ↔ _
  rw [View.set_slice_whole, Rect.mem_set_unit]
  exact Iff.rfl

/-- Every row lies in the block of the point numbered by the row divided by 4000. -/
theorem cover (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 25 := N_2
  let t : Fin cfg2.N := ⟨(i 0).val / 4000, by rw [hN]; omega⟩
  obtain ⟨e0, e1, e2, e3, e4, e5, e6, e7, e8, e9, e10, e11⟩ := idx_facts t
  have ht : t.val = (i 0).val / 4000 := rfl
  refine ⟨t, flush2_5 t, ?_⟩
  rw [mem_blk]
  intro a
  match a with
  | ⟨0, _⟩ =>
    show win2_5.index t (0 : Fin 2) * 4000 ≤ (i 0).val ∧ (i 0).val < win2_5.index t (0 : Fin 2) * 4000 + 4000
    omega
  | ⟨1, _⟩ =>
    show win2_5.index t (1 : Fin 2) * 1 ≤ (i 1).val ∧ (i 1).val < win2_5.index t (1 : Fin 2) * 1 + 1
    omega

/-- THE RESULT ARRAY of the head kernel, from the arrays it finds. -/
theorem arr_eq (c : Dev nD) :
    (dat2 V c).arrAt 5 cfg2.N = denseArr (V c main_v40) (V c main_v15) (V c main_v41) (V c main_arg6) (V c main_v42) :=
  (dat2 V c).arrAt_eq_of_cover 5 _ (fun t _ => flushed_eq V c t) cover

end Region

end Cert.KernelIdeal.Reg2

end
-- ==== Proof.KHost.lean ====
/-
  The host operations around the three kernels, read over arbitrary buffer contents.

  Before the first kernel the host forms, from the edge array, the source words and the target words of the 700000
  messages (the edges followed by one self-loop per node), counts the messages delivered to each node and turns the
  counts into the coefficient column: the inverse square root of a positive count, zero otherwise. Between the
  kernels it gathers, for every message, the row of the previous kernel's result named by the message's source word,
  and adds the gathered rows up at the target words, from zero. Before the last two kernels it also lays a bias
  vector out as a one-row matrix. Every other buffer is left as it was.
-/
import proofs.«141033_j88948772700968_2_alg».proof.Proof.Gen.KernelIdeal.Launch
import Idealize.ShloMosaic.Lib.StableHlo.Run
import Idealize.ShloMosaic.PureOps.Ideal
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.ShloMosaic.StableHlo
open Idealize.SL.Sem

/-- The source words of the messages: row 0 of the edge array, then the node numbers. -/
def srcW (x1 : IVec S2x600000 32) : IVec S700000 32 :=
  concatenate S700000 0 [⟨S600000, shapeCast S600000 (extractStridedSlice S1x600000 ![0, 0] x1 slices_S2x600000_S1x600000_0_0) shapeCasts_S1x600000_S600000⟩,
    ⟨S100000, iotaInDim S100000 32 0⟩] concatenates_S600000_S100000_S700000_d0

/-- The target words of the messages: row 1 of the edge array, then the node numbers. -/
def dstW (x1 : IVec S2x600000 32) : IVec S700000 32 :=
  concatenate S700000 0 [⟨S600000, shapeCast S600000 (extractStridedSlice S1x600000 ![1, 0] x1 slices_S2x600000_S1x600000_1_0) shapeCasts_S1x600000_S600000⟩,
    ⟨S100000, iotaInDim S100000 32 0⟩] concatenates_S600000_S100000_S700000_d0

/-- The number of messages delivered to each node, counted in float ones from float zero. -/
def degV (d : IVec S700000 32) : FVec Ideal S100000 .f32 :=
  Host.scatterAdd scatter_S100000_S700000x1_S700000_n_0_0_1
    (broadcastInDim S100000 ![] bcast_S_S100000 (constant (F := Ideal) S_ .f32 0x00000000#32))
    (broadcastInDim S700000x1 ![0] bcast_S700000_S700000x1_0 d)
    (broadcastInDim S700000 ![] bcast_S_S700000 (constant (F := Ideal) S_ .f32 0x3F800000#32))

/-- The coefficient vector: the inverse square root of a positive count, zero otherwise. -/
def dinvV (d : IVec S700000 32) : FVec Ideal S100000 .f32 :=
  select (cmpf (F := Ideal) .ogt (degV d) (broadcastInDim S100000 ![] bcast_S_S100000 (constant (F := Ideal) S_ .f32 0x00000000#32)))
    (Host.rsqrt (F := Ideal) (degV d))
    (broadcastInDim S100000 ![] bcast_S_S100000 (constant (F := Ideal) S_ .f32 0x00000000#32))

/-- The same as a column. -/
def dinvCol (d : IVec S700000 32) : FVec Ideal S100000x1 .f32 := shapeCast S100000x1 (dinvV d) shapeCasts_S100000_S100000x1

/-- The source words as the gather takes them: a negative word wrapped once by the number of nodes. -/
def wrapW (s : IVec S700000 32) : IVec S700000 32 :=
  select (cmpi .slt s (broadcastInDim S700000 ![] bcast_S_S700000 (constantI S_ 32 0#32)))
    (addi s (broadcastInDim S700000 ![] bcast_S_S700000 (constantI S_ 32 100000#32))) s

/-- Rows of a 64-column table gathered at the source words and added up at the target words, from zero. -/
def agg64 (s d : IVec S700000 32) (A : FVec Ideal S100000x64 .bf16) : FVec Ideal S100000x64 .f32 :=
  Host.scatterAdd scatter_S100000x64_S700000x1_S700000x64_1_0_0_1
    (broadcastInDim S100000x64 ![] bcast_S_S100000x64 (constant (F := Ideal) S_ .f32 0x00000000#32))
    (broadcastInDim S700000x1 ![0] bcast_S700000_S700000x1_0 d)
    (extf .f32 (Host.gather gather_S100000x64_S700000x1_S700000x64_1_0_n_n_0_1_164 A
      (broadcastInDim S700000x1 ![0] bcast_S700000_S700000x1_0 (wrapW s))) bitsLt_bf16_f32)

/-- The same for a 32-column table. -/
def agg32 (s d : IVec S700000 32) (A : FVec Ideal S100000x32 .bf16) : FVec Ideal S100000x32 .f32 :=
  Host.scatterAdd scatter_S100000x32_S700000x1_S700000x32_1_0_0_1
    (broadcastInDim S100000x32 ![] bcast_S_S100000x32 (constant (F := Ideal) S_ .f32 0x00000000#32))
    (broadcastInDim S700000x1 ![0] bcast_S700000_S700000x1_0 d)
    (extf .f32 (Host.gather gather_S100000x32_S700000x1_S700000x32_1_0_n_n_0_1_132 A
      (broadcastInDim S700000x1 ![0] bcast_S700000_S700000x1_0 (wrapW s))) bitsLt_bf16_f32)

/-- Reads a buffer after a literal list of host operations: the operations' results, outermost first. -/
macro "host_read" : tactic => `(tactic| (after_results; first | done | rfl))

variable (ρv : Valuation τ sig (Elt Ideal))

/-! ## The stretch before the first kernel -/

theorem h0_v3 : after hostOps0 ρv (Proc.devRef .tc main_v3) = srcW (ρv (Proc.devRef .tc main_arg1)) := by
  host_read
theorem h0_v6 : after hostOps0 ρv (Proc.devRef .tc main_v6) = dstW (ρv (Proc.devRef .tc main_arg1)) := by
  host_read
theorem h0_v12 : after hostOps0 ρv (Proc.devRef .tc main_v12)
    = cmpf (F := Ideal) .ogt (degV (dstW (ρv (Proc.devRef .tc main_arg1))))
        (broadcastInDim S100000 ![] bcast_S_S100000 (constant (F := Ideal) S_ .f32 0x00000000#32)) := by
  host_read
theorem h0_v13 : after hostOps0 ρv (Proc.devRef .tc main_v13) = Host.rsqrt (F := Ideal) (degV (dstW (ρv (Proc.devRef .tc main_arg1)))) := by
  host_read
theorem h0_cst2 : after hostOps0 ρv (Proc.devRef .tc main_cst_2) = constant (F := Ideal) S_ .f32 0x00000000#32 := by
  host_read
theorem h0_arg0 : after hostOps0 ρv (Proc.devRef .tc main_arg0) = ρv (Proc.devRef .tc main_arg0) := by host_read
theorem h0_arg2 : after hostOps0 ρv (Proc.devRef .tc main_arg2) = ρv (Proc.devRef .tc main_arg2) := by host_read
theorem h0_arg3 : after hostOps0 ρv (Proc.devRef .tc main_arg3) = ρv (Proc.devRef .tc main_arg3) := by host_read
theorem h0_arg4 : after hostOps0 ρv (Proc.devRef .tc main_arg4) = ρv (Proc.devRef .tc main_arg4) := by host_read
theorem h0_arg5 : after hostOps0 ρv (Proc.devRef .tc main_arg5) = ρv (Proc.devRef .tc main_arg5) := by host_read
theorem h0_arg6 : after hostOps0 ρv (Proc.devRef .tc main_arg6) = ρv (Proc.devRef .tc main_arg6) := by host_read
theorem h0_arg7 : after hostOps0 ρv (Proc.devRef .tc main_arg7) = ρv (Proc.devRef .tc main_arg7) := by host_read

/-! ## The three operations of the outlined `where` -/

theorem h01_v14 : after hostOps0_1 ρv (Proc.devRef .tc main_v14)
    = select (ρv (Proc.devRef .tc main_v12)) (ρv (Proc.devRef .tc main_v13))
        (broadcastInDim S100000 ![] bcast_S_S100000 (ρv (Proc.devRef .tc main_cst_2))) := by
  host_read
theorem h01_v3 : after hostOps0_1 ρv (Proc.devRef .tc main_v3) = ρv (Proc.devRef .tc main_v3) := by host_read
theorem h01_v6 : after hostOps0_1 ρv (Proc.devRef .tc main_v6) = ρv (Proc.devRef .tc main_v6) := by host_read
theorem h01_arg0 : after hostOps0_1 ρv (Proc.devRef .tc main_arg0) = ρv (Proc.devRef .tc main_arg0) := by host_read
theorem h01_arg2 : after hostOps0_1 ρv (Proc.devRef .tc main_arg2) = ρv (Proc.devRef .tc main_arg2) := by host_read
theorem h01_arg3 : after hostOps0_1 ρv (Proc.devRef .tc main_arg3) = ρv (Proc.devRef .tc main_arg3) := by host_read
theorem h01_arg4 : after hostOps0_1 ρv (Proc.devRef .tc main_arg4) = ρv (Proc.devRef .tc main_arg4) := by host_read
theorem h01_arg5 : after hostOps0_1 ρv (Proc.devRef .tc main_arg5) = ρv (Proc.devRef .tc main_arg5) := by host_read
theorem h01_arg6 : after hostOps0_1 ρv (Proc.devRef .tc main_arg6) = ρv (Proc.devRef .tc main_arg6) := by host_read
theorem h01_arg7 : after hostOps0_1 ρv (Proc.devRef .tc main_arg7) = ρv (Proc.devRef .tc main_arg7) := by host_read

/-! ## The reshape to a column -/

theorem h02_v15 : after hostOps0_2 ρv (Proc.devRef .tc main_v15)
    = shapeCast S100000x1 (ρv (Proc.devRef .tc main_v14)) shapeCasts_S100000_S100000x1 := by
  host_read
theorem h02_v3 : after hostOps0_2 ρv (Proc.devRef .tc main_v3) = ρv (Proc.devRef .tc main_v3) := by host_read
theorem h02_v6 : after hostOps0_2 ρv (Proc.devRef .tc main_v6) = ρv (Proc.devRef .tc main_v6) := by host_read
theorem h02_arg0 : after hostOps0_2 ρv (Proc.devRef .tc main_arg0) = ρv (Proc.devRef .tc main_arg0) := by host_read
theorem h02_arg2 : after hostOps0_2 ρv (Proc.devRef .tc main_arg2) = ρv (Proc.devRef .tc main_arg2) := by host_read
theorem h02_arg3 : after hostOps0_2 ρv (Proc.devRef .tc main_arg3) = ρv (Proc.devRef .tc main_arg3) := by host_read
theorem h02_arg4 : after hostOps0_2 ρv (Proc.devRef .tc main_arg4) = ρv (Proc.devRef .tc main_arg4) := by host_read
theorem h02_arg5 : after hostOps0_2 ρv (Proc.devRef .tc main_arg5) = ρv (Proc.devRef .tc main_arg5) := by host_read
theorem h02_arg6 : after hostOps0_2 ρv (Proc.devRef .tc main_arg6) = ρv (Proc.devRef .tc main_arg6) := by host_read
theorem h02_arg7 : after hostOps0_2 ρv (Proc.devRef .tc main_arg7) = ρv (Proc.devRef .tc main_arg7) := by host_read

/-! ## The stretch between the first and the second kernel -/

theorem h1_v27 : after hostOps1 ρv (Proc.devRef .tc main_v27)
    = agg64 (ρv (Proc.devRef .tc main_v3)) (ρv (Proc.devRef .tc main_v6)) (ρv (Proc.devRef .tc main_v16)) := by
  host_read
theorem h1_v28 : after hostOps1 ρv (Proc.devRef .tc main_v28)
    = shapeCast S1x64 (ρv (Proc.devRef .tc main_arg3)) shapeCasts_S64_S1x64 := by
  host_read
theorem h1_v15 : after hostOps1 ρv (Proc.devRef .tc main_v15) = ρv (Proc.devRef .tc main_v15) := by host_read
theorem h1_v3 : after hostOps1 ρv (Proc.devRef .tc main_v3) = ρv (Proc.devRef .tc main_v3) := by host_read
theorem h1_v6 : after hostOps1 ρv (Proc.devRef .tc main_v6) = ρv (Proc.devRef .tc main_v6) := by host_read
theorem h1_arg4 : after hostOps1 ρv (Proc.devRef .tc main_arg4) = ρv (Proc.devRef .tc main_arg4) := by host_read
theorem h1_arg5 : after hostOps1 ρv (Proc.devRef .tc main_arg5) = ρv (Proc.devRef .tc main_arg5) := by host_read
theorem h1_arg6 : after hostOps1 ρv (Proc.devRef .tc main_arg6) = ρv (Proc.devRef .tc main_arg6) := by host_read
theorem h1_arg7 : after hostOps1 ρv (Proc.devRef .tc main_arg7) = ρv (Proc.devRef .tc main_arg7) := by host_read

/-! ## The stretch between the second kernel and the head -/

theorem h2_v40 : after hostOps2 ρv (Proc.devRef .tc main_v40)
    = agg32 (ρv (Proc.devRef .tc main_v3)) (ρv (Proc.devRef .tc main_v6)) (ρv (Proc.devRef .tc main_v29)) := by
  host_read
theorem h2_v41 : after hostOps2 ρv (Proc.devRef .tc main_v41)
    = shapeCast S1x32 (ρv (Proc.devRef .tc main_arg5)) shapeCasts_S32_S1x32 := by
  host_read
theorem h2_v42 : after hostOps2 ρv (Proc.devRef .tc main_v42)
    = shapeCast S1x1 (ρv (Proc.devRef .tc main_arg7)) shapeCasts_S1_S1x1 := by
  host_read
theorem h2_v15 : after hostOps2 ρv (Proc.devRef .tc main_v15) = ρv (Proc.devRef .tc main_v15) := by host_read
theorem h2_arg6 : after hostOps2 ρv (Proc.devRef .tc main_arg6) = ρv (Proc.devRef .tc main_arg6) := by host_read

end Cert.KernelIdeal.Host

end
-- ==== Proof.LibGcnColumn.lean ====
/-
  Gathers and accumulating scatters at a COLUMN of words, read at an index.

  The programs hand the row numbers to a gather or a scatter as an [E, 1] column spread from a length-E vector of
  words. Read at an index, a row gather returns the table's row named by the word (clamped), and an accumulating
  scatter returns the operand's entry plus the sum of the updates whose word, read signed, is the row.
-/
import proofs.«141033_j88948772700968_2_alg».proof.Proof.LibGcnWords

noncomputable section

open scoped BigOperators

namespace Cert.GcnRead

open Idealize.ShloMosaic Idealize.ShloMosaic.ValueIdx Idealize.ShloMosaic.RowGather

variable {N E D : ℕ}

/-- Rows of a table gathered at a column of words. -/
theorem gatherRows_apply {α : Type} (hN : 0 < N)
    (wf : GatherDims.WF ⟨2, ![N, D]⟩ ⟨2, ![E, 1]⟩ ⟨2, ![E, D]⟩ [1] [0] [] [0] [] 1 ![1, D])
    (bc : (⟨1, ![E]⟩ : Shape).BroadcastsInDim ⟨2, ![E, 1]⟩ ![0])
    (X : (⟨2, ![N, D]⟩ : Shape).Idx → α) (v : IVec ⟨1, ![E]⟩ 32) (e : Fin E) (j : Fin D) :
    Host.gather (rowDims N E D wf) X (broadcastInDim ⟨2, ![E, 1]⟩ ![0] bc v) (ix2 e j) = X (ix2 (rowOf hN (v (ix1 e))) j) := by
  rw [rowGather_apply hN wf, LibHostKeepdims.bcast_a_a1_apply]

/-- Entries of a vector gathered at a column of words. -/
theorem gatherVec_apply {α : Type} (hN : 0 < N)
    (wf : GatherDims.WF ⟨1, ![N]⟩ ⟨2, ![E, 1]⟩ ⟨1, ![E]⟩ [] [0] [] [0] [] 1 ![1])
    (bc : (⟨1, ![E]⟩ : Shape).BroadcastsInDim ⟨2, ![E, 1]⟩ ![0])
    (X : (⟨1, ![N]⟩ : Shape).Idx → α) (v : IVec ⟨1, ![E]⟩ 32) (e : Fin E) :
    Host.gather (vecDims N E wf) X (broadcastInDim ⟨2, ![E, 1]⟩ ![0] bc v) (ix1 e) = X (ix1 (rowOf hN (v (ix1 e)))) := by
  rw [vecGather_apply hN wf, LibHostKeepdims.bcast_a_a1_apply]

/-- Rows added up at a column of words. -/
theorem scatterRows_apply (wf : ScatterDims.WF ⟨2, ![N, D]⟩ ⟨2, ![E, 1]⟩ ⟨2, ![E, D]⟩ [1] [0] [0] 1)
    (bc : (⟨1, ![E]⟩ : Shape).BroadcastsInDim ⟨2, ![E, 1]⟩ ![0])
    (Z : FVec Ideal ⟨2, ![N, D]⟩ .f32) (v : IVec ⟨1, ![E]⟩ 32) (U : FVec Ideal ⟨2, ![E, D]⟩ .f32) (i : Fin N) (j : Fin D) :
    Host.scatterAdd (RowScatter.rowDims N E D wf) Z (broadcastInDim ⟨2, ![E, 1]⟩ ![0] bc v) U (ix2 i j)
      = Z (ix2 i j) + ∑ e ∈ Finset.univ.filter (fun e : Fin E => lands v e i), U (ix2 e j) := by
  refine (RowScatter.rowScatterAdd_apply wf Z _ U i j).trans ?_
  congr 1
  refine Finset.sum_congr (Finset.filter_congr fun e _ => ?_) fun _ _ => rfl
  unfold lands
  rw [LibHostKeepdims.bcast_a_a1_apply]

/-- Entries added up at a column of words. -/
theorem scatterVec_apply (wf : ScatterDims.WF ⟨1, ![N]⟩ ⟨2, ![E, 1]⟩ ⟨1, ![E]⟩ [] [0] [0] 1)
    (bc : (⟨1, ![E]⟩ : Shape).BroadcastsInDim ⟨2, ![E, 1]⟩ ![0])
    (Z : FVec Ideal ⟨1, ![N]⟩ .f32) (v : IVec ⟨1, ![E]⟩ 32) (U : FVec Ideal ⟨1, ![E]⟩ .f32) (i : Fin N) :
    Host.scatterAdd (RowScatter.vecDims N E wf) Z (broadcastInDim ⟨2, ![E, 1]⟩ ![0] bc v) U (ix1 i)
      = Z (ix1 i) + ∑ e ∈ Finset.univ.filter (fun e : Fin E => lands v e i), U (ix1 e) := by
  refine (RowScatter.vecScatterAdd_apply wf Z _ U i).trans ?_
  congr 1
  refine Finset.sum_congr (Finset.filter_congr fun e _ => ?_) fun _ _ => rfl
  unfold lands
  rw [LibHostKeepdims.bcast_a_a1_apply]

end Cert.GcnRead

end
-- ==== Proof.LibGcnPieces.lean ====
/-
  The pieces of a message-passing layer read at an index, on the extended reals.

  A scalar spread over an array; rows (or vector entries) gathered at a column of wrapped words; updates added up
  from a zero array at a column of words; and the coefficient vector — the inverse square root of a positive degree,
  zero otherwise — read as the coefficient of a row.
-/
import proofs.«141033_j88948772700968_2_alg».proof.Proof.LibGcnColumn

noncomputable section

open scoped BigOperators

namespace Cert.GcnRead

open Idealize.ShloMosaic Idealize.ShloMosaic.ValueIdx Idealize.ShloMosaic.RowGather

variable {N E D : ℕ}

/-- A float scalar spread over an array reads the scalar everywhere. -/
theorem splat_apply {t : Shape} {φ : FTy} (h : (⟨0, ![]⟩ : Shape).BroadcastsInDim t ![]) (w : BitVec φ.bits) (j : t.Idx) :
    broadcastInDim t ![] h (constant (F := Ideal) ⟨0, ![]⟩ φ w) j = Ideal.ofBits φ w := rfl

/-- A word spread over an array reads the word everywhere. -/
theorem splatI_apply {t : Shape} {w : ℕ} (h : (⟨0, ![]⟩ : Shape).BroadcastsInDim t ![]) (b : BitVec w) (j : t.Idx) :
    broadcastInDim t ![] h (constantI ⟨0, ![]⟩ w b) j = b := rfl

/-- Rows gathered at a column of wrapped words: message e reads the row of its source node. -/
theorem gatherWrapped_apply {α : Type} (hN : 0 < N)
    (wf : GatherDims.WF ⟨2, ![N, D]⟩ ⟨2, ![E, 1]⟩ ⟨2, ![E, D]⟩ [1] [0] [] [0] [] 1 ![1, D])
    (bc : (⟨1, ![E]⟩ : Shape).BroadcastsInDim ⟨2, ![E, 1]⟩ ![0])
    (X : (⟨2, ![N, D]⟩ : Shape).Idx → α) (s z n : IVec ⟨1, ![E]⟩ 32) (e : Fin E) (j : Fin D) :
    Host.gather (rowDims N E D wf) X (broadcastInDim ⟨2, ![E, 1]⟩ ![0] bc (select (cmpi .slt s z) (addi s n) s)) (ix2 e j)
      = X (ix2 (node hN s z n e) j) := by
  rw [gatherRows_apply hN]
  rfl

/-- Vector entries gathered at a column of wrapped words. -/
theorem gatherVecWrapped_apply {α : Type} (hN : 0 < N)
    (wf : GatherDims.WF ⟨1, ![N]⟩ ⟨2, ![E, 1]⟩ ⟨1, ![E]⟩ [] [0] [] [0] [] 1 ![1])
    (bc : (⟨1, ![E]⟩ : Shape).BroadcastsInDim ⟨2, ![E, 1]⟩ ![0])
    (X : (⟨1, ![N]⟩ : Shape).Idx → α) (s z n : IVec ⟨1, ![E]⟩ 32) (e : Fin E) :
    Host.gather (vecDims N E wf) X (broadcastInDim ⟨2, ![E, 1]⟩ ![0] bc (select (cmpi .slt s z) (addi s n) s)) (ix1 e)
      = X (ix1 (node hN s z n e)) := by
  rw [gatherVec_apply hN]
  rfl

/-- Updates added up from the zero array at a column of words. -/
theorem scatterZero_apply (wf : ScatterDims.WF ⟨2, ![N, D]⟩ ⟨2, ![E, 1]⟩ ⟨2, ![E, D]⟩ [1] [0] [0] 1)
    (bc : (⟨1, ![E]⟩ : Shape).BroadcastsInDim ⟨2, ![E, 1]⟩ ![0])
    (bz : (⟨0, ![]⟩ : Shape).BroadcastsInDim ⟨2, ![N, D]⟩ ![])
    (d : IVec ⟨1, ![E]⟩ 32) (U : FVec Ideal ⟨2, ![E, D]⟩ .f32) (i : Fin N) (j : Fin D) :
    Host.scatterAdd (RowScatter.rowDims N E D wf) (broadcastInDim ⟨2, ![N, D]⟩ ![] bz (constant (F := Ideal) ⟨0, ![]⟩ .f32 0x00000000#32))
        (broadcastInDim ⟨2, ![E, 1]⟩ ![0] bc d) U (ix2 i j)
      = 0 + ∑ e ∈ Finset.univ.filter (fun e : Fin E => lands d e i), U (ix2 e j) := by
  rw [scatterRows_apply, splat_apply, Ideal.ofBits_zero_f32]

/-- The coefficient vector read at a row. -/
theorem coefVec_apply (wf : ScatterDims.WF ⟨1, ![N]⟩ ⟨2, ![E, 1]⟩ ⟨1, ![E]⟩ [] [0] [0] 1)
    (bc : (⟨1, ![E]⟩ : Shape).BroadcastsInDim ⟨2, ![E, 1]⟩ ![0])
    (bzN : (⟨0, ![]⟩ : Shape).BroadcastsInDim ⟨1, ![N]⟩ ![]) (bzE : (⟨0, ![]⟩ : Shape).BroadcastsInDim ⟨1, ![E]⟩ ![])
    (d : IVec ⟨1, ![E]⟩ 32) (i : Fin N) :
    select
        (cmpf (F := Ideal) .ogt
          (Host.scatterAdd (RowScatter.vecDims N E wf) (broadcastInDim ⟨1, ![N]⟩ ![] bzN (constant (F := Ideal) ⟨0, ![]⟩ .f32 0x00000000#32))
            (broadcastInDim ⟨2, ![E, 1]⟩ ![0] bc d) (broadcastInDim ⟨1, ![E]⟩ ![] bzE (constant (F := Ideal) ⟨0, ![]⟩ .f32 0x3F800000#32)))
          (broadcastInDim ⟨1, ![N]⟩ ![] bzN (constant (F := Ideal) ⟨0, ![]⟩ .f32 0x00000000#32)))
        (Host.rsqrt (F := Ideal)
          (Host.scatterAdd (RowScatter.vecDims N E wf) (broadcastInDim ⟨1, ![N]⟩ ![] bzN (constant (F := Ideal) ⟨0, ![]⟩ .f32 0x00000000#32))
            (broadcastInDim ⟨2, ![E, 1]⟩ ![0] bc d) (broadcastInDim ⟨1, ![E]⟩ ![] bzE (constant (F := Ideal) ⟨0, ![]⟩ .f32 0x3F800000#32))))
        (broadcastInDim ⟨1, ![N]⟩ ![] bzN (constant (F := Ideal) ⟨0, ![]⟩ .f32 0x00000000#32)) (ix1 i)
      = coef d i := by
  have hdeg : Host.scatterAdd (RowScatter.vecDims N E wf) (broadcastInDim ⟨1, ![N]⟩ ![] bzN (constant (F := Ideal) ⟨0, ![]⟩ .f32 0x00000000#32))
      (broadcastInDim ⟨2, ![E, 1]⟩ ![0] bc d) (broadcastInDim ⟨1, ![E]⟩ ![] bzE (constant (F := Ideal) ⟨0, ![]⟩ .f32 0x3F800000#32)) (ix1 i)
      = deg d i := by
    rw [scatterVec_apply]
    rfl
  rw [select_apply, cmpf_apply]
  show Scalar.select (Ideal.cmp .ogt _ (Ideal.ofBits .f32 0x00000000#32)) (Ideal.rsqrt _) (Ideal.ofBits .f32 0x00000000#32) = _
  rw [hdeg]
  rfl

end Cert.GcnRead

end
-- ==== Proof.KMath.lean ====
/-
  The kernel side as one function of the argument arrays: the three kernels' results composed through the host's gathers
  and scatter-adds are the FOLDED network.

  Entry by entry: the coefficient column holds the coefficient of the row; a gather at the wrapped source words followed by
  a scatter-add at the target words, from zero, is the sum over the messages delivered to the row of the table's row at the
  message's source node; a bias vector laid out as one row reads the vector's entry. With these the first kernel's result
  is the scaled dense stage, the second kernel's result the scaled dense stage of the first folded layer, and the head's
  result the dense head of the second folded layer.
-/
import proofs.«141033_j88948772700968_2_alg».proof.Proof.KReg0
import proofs.«141033_j88948772700968_2_alg».proof.Proof.KReg1
import proofs.«141033_j88948772700968_2_alg».proof.Proof.KReg2
import proofs.«141033_j88948772700968_2_alg».proof.Proof.KHost
import proofs.«141033_j88948772700968_2_alg».proof.Proof.Net
import proofs.«141033_j88948772700968_2_alg».proof.Proof.LibGcnPieces
import proofs.«141033_j88948772700968_2_alg».proof.Proof.LibKeepdims
import Idealize.ShloMosaic.Lib.ValueLayout

noncomputable section

open scoped BigOperators

namespace Cert.KernelIdeal.KMath

open Cert.KernelIdeal Cert.KernelIdeal.Gen Idealize.ShloMosaic Idealize.ShloMosaic.ValueIdx Cert.GcnRead

/-- The coefficient column at row R is the coefficient of R. -/
theorem dinvCol_apply (d : IVec S700000 32) (R : Fin 100000) (u : Fin 1) : Host.dinvCol d (ix2 R u) = coef d R := by
  unfold Host.dinvCol
  refine (LibKeepdims.shapeCast_a_a1_apply _ shapeCasts_S100000_S100000x1 R u).trans ?_
  unfold Host.dinvV Host.degV
  have hs : scatter_S100000_S700000x1_S700000_n_0_0_1
      = RowScatter.vecDims 100000 700000 scatter_S100000_S700000x1_S700000_n_0_0_1_wf := rfl
  rw [hs]
  exact coefVec_apply scatter_S100000_S700000x1_S700000_n_0_0_1_wf bcast_S700000_S700000x1_0 bcast_S_S100000 bcast_S_S700000 d R

/-- Rows of a 64-column table gathered at the source words and added up at the target words: at (i, j) the sum over
    the messages delivered to i of the table's entry (source node, j). -/
theorem agg64_apply (s d : IVec S700000 32) (A : FVec Ideal S100000x64 .bf16) (i : Fin 100000) (j : Fin 64) :
    Host.agg64 s d A (ix2 i j) = Net.gathered s d (fun R c => A (ix2 R c)) i j := by
  unfold Host.agg64 Net.gathered Net.into
  have hs : scatter_S100000x64_S700000x1_S700000x64_1_0_0_1
      = RowScatter.rowDims 100000 700000 64 scatter_S100000x64_S700000x1_S700000x64_1_0_0_1_wf := rfl
  have hg : gather_S100000x64_S700000x1_S700000x64_1_0_n_n_0_1_164
      = RowGather.rowDims 100000 700000 64 gather_S100000x64_S700000x1_S700000x64_1_0_n_n_0_1_164_wf := rfl
  rw [hs, hg]
  refine (scatterZero_apply _ bcast_S700000_S700000x1_0 bcast_S_S100000x64 d _ i j).trans ?_
  refine congrArg (fun u : EReal => 0 + u) (Finset.sum_congr rfl fun e _ => ?_)
  rw [extf_apply]
  exact gatherWrapped_apply Net.hN _ bcast_S700000_S700000x1_0 A s _ _ e j

/-- The same for a 32-column table. -/
theorem agg32_apply (s d : IVec S700000 32) (A : FVec Ideal S100000x32 .bf16) (i : Fin 100000) (j : Fin 32) :
    Host.agg32 s d A (ix2 i j) = Net.gathered s d (fun R c => A (ix2 R c)) i j := by
  unfold Host.agg32 Net.gathered Net.into
  have hs : scatter_S100000x32_S700000x1_S700000x32_1_0_0_1
      = RowScatter.rowDims 100000 700000 32 scatter_S100000x32_S700000x1_S700000x32_1_0_0_1_wf := rfl
  have hg : gather_S100000x32_S700000x1_S700000x32_1_0_n_n_0_1_132
      = RowGather.rowDims 100000 700000 32 gather_S100000x32_S700000x1_S700000x32_1_0_n_n_0_1_132_wf := rfl
  rw [hs, hg]
  refine (scatterZero_apply _ bcast_S700000_S700000x1_0 bcast_S_S100000x32 d _ i j).trans ?_
  refine congrArg (fun u : EReal => 0 + u) (Finset.sum_congr rfl fun e _ => ?_)
  rw [extf_apply]
  exact gatherWrapped_apply Net.hN _ bcast_S700000_S700000x1_0 A s _ _ e j

section Composed

variable (x1 : IVec S2x600000 32) (X : FVec Ideal S100000x128 .f32) (W1 : FVec Ideal S128x64 .f32) (B1 : FVec Ideal S64 .f32)
  (W2 : FVec Ideal S64x32 .f32) (B2 : FVec Ideal S32 .f32) (WC : FVec Ideal S32x1 .f32) (BC : FVec Ideal S1 .f32)

/-- The first kernel's result, from the arguments. -/
def stage1 : FVec Ideal S100000x64 .bf16 := Reg0.denseArr X W1 (Host.dinvCol (Host.dstW x1))

/-- The second kernel's result, from the arguments. -/
def stage2 : FVec Ideal S100000x32 .bf16 :=
  Reg1.denseArr (Host.agg64 (Host.srcW x1) (Host.dstW x1) (stage1 x1 X W1)) (Host.dinvCol (Host.dstW x1))
    (shapeCast S1x64 B1 shapeCasts_S64_S1x64) W2

/-- THE KERNEL SIDE'S RESULT, from the arguments. -/
def result : FVec Ideal S100000x1 .f32 :=
  Reg2.denseArr (Host.agg32 (Host.srcW x1) (Host.dstW x1) (stage2 x1 X W1 B1 W2)) (Host.dinvCol (Host.dstW x1))
    (shapeCast S1x32 B2 shapeCasts_S32_S1x32) WC (shapeCast S1x1 BC shapeCasts_S1_S1x1)

/-- The first kernel's result is the scaled dense stage of the features. -/
theorem stage1_apply (i : Fin 100000) (j : Fin 64) :
    stage1 x1 X W1 (ix2 i j)
      = Net.scaled (Host.dstW x1) (fun R k => X (ix2 R k)) (fun k c => W1 (ix2 k c)) i j := by
  show (∑ k : Fin 128, X (ix2 i k) * W1 (ix2 k j)) * Host.dinvCol (Host.dstW x1) (ix2 i (0 : Fin 1)) = _
  rw [dinvCol_apply]
  rfl

/-- The second kernel's result is the scaled dense stage of the first folded layer. -/
theorem stage2_apply (i : Fin 100000) (j : Fin 32) :
    stage2 x1 X W1 B1 W2 (ix2 i j)
      = Net.scaled (Host.dstW x1)
          (Net.foldedLayer (Host.srcW x1) (Host.dstW x1) (fun R k => X (ix2 R k)) (fun k c => W1 (ix2 k c)) (fun c => B1 (ix1 c)))
          (fun k c => W2 (ix2 k c)) i j := by
  show (∑ k : Fin 64, max (Host.agg64 (Host.srcW x1) (Host.dstW x1) (stage1 x1 X W1) (ix2 i k)
        * Host.dinvCol (Host.dstW x1) (ix2 i (0 : Fin 1)) + shapeCast S1x64 B1 shapeCasts_S64_S1x64 (ix2 (0 : Fin 1) k)) 0 * W2 (ix2 k j))
      * Host.dinvCol (Host.dstW x1) (ix2 i (0 : Fin 1)) = _
  rw [dinvCol_apply]
  unfold Net.scaled Net.foldedLayer
  refine congrArg (fun u : EReal => u * coef (Host.dstW x1) i) (Finset.sum_congr rfl fun k _ => ?_)
  rw [agg64_apply, shapeCast_a_1a_apply]
  have hg : (fun R c => stage1 x1 X W1 (ix2 R c))
      = Net.scaled (Host.dstW x1) (fun R k => X (ix2 R k)) (fun k c => W1 (ix2 k c)) :=
    funext fun R => funext fun c => stage1_apply x1 X W1 R c
  rw [hg]

/-- THE KERNEL SIDE'S RESULT at row i is the folded network at i. -/
theorem result_apply (i : Fin 100000) (u : Fin 1) :
    result x1 X W1 B1 W2 B2 WC BC (ix2 i u)
      = Net.foldedNet (Host.srcW x1) (Host.dstW x1) (fun R k => X (ix2 R k)) (fun k c => W1 (ix2 k c)) (fun c => B1 (ix1 c))
          (fun k c => W2 (ix2 k c)) (fun c => B2 (ix1 c)) (fun k => WC (ix2 k (0 : Fin 1))) (BC (ix1 (0 : Fin 1))) i := by
  have hu : u = 0 := Subsingleton.elim _ _
  subst hu
  show (∑ k : Fin 32, max (Host.agg32 (Host.srcW x1) (Host.dstW x1) (stage2 x1 X W1 B1 W2) (ix2 i k)
        * Host.dinvCol (Host.dstW x1) (ix2 i (0 : Fin 1)) + shapeCast S1x32 B2 shapeCasts_S32_S1x32 (ix2 (0 : Fin 1) k)) 0
          * WC (ix2 k (0 : Fin 1)))
      + shapeCast S1x1 BC shapeCasts_S1_S1x1 (ix2 (0 : Fin 1) (0 : Fin 1)) = _
  unfold Net.foldedNet Net.head
  rw [shapeCast_a_1a_apply]
  refine congrArg (fun v : EReal => v + BC (ix1 (0 : Fin 1))) (Finset.sum_congr rfl fun k _ => ?_)
  rw [dinvCol_apply, agg32_apply, shapeCast_a_1a_apply]
  have hg : (fun R c => stage2 x1 X W1 B1 W2 (ix2 R c))
      = Net.scaled (Host.dstW x1)
          (Net.foldedLayer (Host.srcW x1) (Host.dstW x1) (fun R k => X (ix2 R k)) (fun k c => W1 (ix2 k c)) (fun c => B1 (ix1 c)))
          (fun k c => W2 (ix2 k c)) :=
    funext fun R => funext fun c => stage2_apply x1 X W1 B1 W2 R c
  rw [hg]
  rfl

end Composed

end Cert.KernelIdeal.KMath

end
-- ==== Proof.KChain.lean ====
/-
  The kernel program's buffers at every boundary between its segments, and its run with the result named.

  @main is three stretches of host operations, the first kernel, a stretch, the second kernel, a stretch, the head kernel.
  Walking the boundaries in order: after the first stretches the words of the messages and the coefficient column are the
  host's functions of the edge array and the arguments are untouched; each kernel leaves its result array at its function
  of the arrays it found and everything else as it was; each later stretch forms the aggregate from the previous result
  and lays the next bias out. At the last boundary the result buffer holds the composed function of the arguments.
-/
import proofs.«141033_j88948772700968_2_alg».proof.Proof.Gen.KernelIdeal.Frame
import proofs.«141033_j88948772700968_2_alg».proof.Proof.KFrame
import proofs.«141033_j88948772700968_2_alg».proof.Proof.KMath

set_option maxRecDepth 16384

noncomputable section

namespace Cert.KernelIdeal.Chain

open Cert.KernelIdeal Cert.KernelIdeal.Gen Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ) (ρ : Dev nD → PrngReg) (c : Dev nD)

/-! ## Region 0's entry -/

theorem W3_v3 : W3 m ρ c (Proc.devRef .tc main_v3) = Host.srcW (m ((c : Thread nD τ).loc main_arg1)) :=
  (Host.h02_v3 (W2 m ρ c)).trans ((Host.h01_v3 (W1 m ρ c)).trans (Host.h0_v3 (W0 m ρ c)))
theorem W3_v6 : W3 m ρ c (Proc.devRef .tc main_v6) = Host.dstW (m ((c : Thread nD τ).loc main_arg1)) :=
  (Host.h02_v6 (W2 m ρ c)).trans ((Host.h01_v6 (W1 m ρ c)).trans (Host.h0_v6 (W0 m ρ c)))
theorem W3_arg0 : W3 m ρ c (Proc.devRef .tc main_arg0) = m ((c : Thread nD τ).loc main_arg0) :=
  (Host.h02_arg0 (W2 m ρ c)).trans ((Host.h01_arg0 (W1 m ρ c)).trans (Host.h0_arg0 (W0 m ρ c)))
theorem W3_arg2 : W3 m ρ c (Proc.devRef .tc main_arg2) = m ((c : Thread nD τ).loc main_arg2) :=
  (Host.h02_arg2 (W2 m ρ c)).trans ((Host.h01_arg2 (W1 m ρ c)).trans (Host.h0_arg2 (W0 m ρ c)))
theorem W3_arg3 : W3 m ρ c (Proc.devRef .tc main_arg3) = m ((c : Thread nD τ).loc main_arg3) :=
  (Host.h02_arg3 (W2 m ρ c)).trans ((Host.h01_arg3 (W1 m ρ c)).trans (Host.h0_arg3 (W0 m ρ c)))
theorem W3_arg4 : W3 m ρ c (Proc.devRef .tc main_arg4) = m ((c : Thread nD τ).loc main_arg4) :=
  (Host.h02_arg4 (W2 m ρ c)).trans ((Host.h01_arg4 (W1 m ρ c)).trans (Host.h0_arg4 (W0 m ρ c)))
theorem W3_arg5 : W3 m ρ c (Proc.devRef .tc main_arg5) = m ((c : Thread nD τ).loc main_arg5) :=
  (Host.h02_arg5 (W2 m ρ c)).trans ((Host.h01_arg5 (W1 m ρ c)).trans (Host.h0_arg5 (W0 m ρ c)))
theorem W3_arg6 : W3 m ρ c (Proc.devRef .tc main_arg6) = m ((c : Thread nD τ).loc main_arg6) :=
  (Host.h02_arg6 (W2 m ρ c)).trans ((Host.h01_arg6 (W1 m ρ c)).trans (Host.h0_arg6 (W0 m ρ c)))
theorem W3_arg7 : W3 m ρ c (Proc.devRef .tc main_arg7) = m ((c : Thread nD τ).loc main_arg7) :=
  (Host.h02_arg7 (W2 m ρ c)).trans ((Host.h01_arg7 (W1 m ρ c)).trans (Host.h0_arg7 (W0 m ρ c)))
theorem W3_v15 : W3 m ρ c (Proc.devRef .tc main_v15) = Host.dinvCol (Host.dstW (m ((c : Thread nD τ).loc main_arg1))) := by
  refine (Host.h02_v15 (W2 m ρ c)).trans ?_
  refine congrArg (fun v : FVec Ideal S100000 .f32 => shapeCast S100000x1 v shapeCasts_S100000_S100000x1) ?_
  refine (Host.h01_v14 (W1 m ρ c)).trans ?_
  show select (after hostOps0 (W0 m ρ c) (Proc.devRef .tc main_v12)) (after hostOps0 (W0 m ρ c) (Proc.devRef .tc main_v13))
      (broadcastInDim S100000 ![] bcast_S_S100000 (after hostOps0 (W0 m ρ c) (Proc.devRef .tc main_cst_2))) = _
  rw [Host.h0_v12, Host.h0_v13, Host.h0_cst2]
  rfl

/-! ## Region 0's exit -/

theorem W4_v16 : W4 m ρ c (Proc.devRef .tc main_v16) = KMath.stage1 (m ((c : Thread nD τ).loc main_arg1)) (m ((c : Thread nD τ).loc main_arg0)) (m ((c : Thread nD τ).loc main_arg2)) := by
  refine (W4_arr m ρ c 3).trans ((Reg0.arr_eq (V3 m ρ) c).trans ?_)
  show Reg0.denseArr (W3 m ρ c (Proc.devRef .tc main_arg0)) (W3 m ρ c (Proc.devRef .tc main_arg2)) (W3 m ρ c (Proc.devRef .tc main_v15)) = _
  rw [W3_arg0, W3_arg2, W3_v15]
  rfl
theorem W4_v15 : W4 m ρ c (Proc.devRef .tc main_v15) = Host.dinvCol (Host.dstW (m ((c : Thread nD τ).loc main_arg1))) :=
  ((W4_arr m ρ c 2).trans (((dat0 (V3 m ρ) c).arrAt_in 2 rfl _).trans (A_eq0 (V3 m ρ) c 2))).trans (W3_v15 m ρ c)
theorem W4_v3 : W4 m ρ c (Proc.devRef .tc main_v3) = Host.srcW (m ((c : Thread nD τ).loc main_arg1)) := (W4_of_ne m ρ c main_v3 (by decide)).trans (W3_v3 m ρ c)
theorem W4_v6 : W4 m ρ c (Proc.devRef .tc main_v6) = Host.dstW (m ((c : Thread nD τ).loc main_arg1)) := (W4_of_ne m ρ c main_v6 (by decide)).trans (W3_v6 m ρ c)
theorem W4_arg3 : W4 m ρ c (Proc.devRef .tc main_arg3) = m ((c : Thread nD τ).loc main_arg3) := (W4_of_ne m ρ c main_arg3 (by decide)).trans (W3_arg3 m ρ c)
theorem W4_arg4 : W4 m ρ c (Proc.devRef .tc main_arg4) = m ((c : Thread nD τ).loc main_arg4) := (W4_of_ne m ρ c main_arg4 (by decide)).trans (W3_arg4 m ρ c)
theorem W4_arg5 : W4 m ρ c (Proc.devRef .tc main_arg5) = m ((c : Thread nD τ).loc main_arg5) := (W4_of_ne m ρ c main_arg5 (by decide)).trans (W3_arg5 m ρ c)
theorem W4_arg6 : W4 m ρ c (Proc.devRef .tc main_arg6) = m ((c : Thread nD τ).loc main_arg6) := (W4_of_ne m ρ c main_arg6 (by decide)).trans (W3_arg6 m ρ c)
theorem W4_arg7 : W4 m ρ c (Proc.devRef .tc main_arg7) = m ((c : Thread nD τ).loc main_arg7) := (W4_of_ne m ρ c main_arg7 (by decide)).trans (W3_arg7 m ρ c)

/-! ## Region 1's entry -/

theorem W5_v27 : W5 m ρ c (Proc.devRef .tc main_v27)
    = Host.agg64 (Host.srcW (m ((c : Thread nD τ).loc main_arg1))) (Host.dstW (m ((c : Thread nD τ).loc main_arg1))) (KMath.stage1 (m ((c : Thread nD τ).loc main_arg1)) (m ((c : Thread nD τ).loc main_arg0)) (m ((c : Thread nD τ).loc main_arg2))) := by
  refine (Host.h1_v27 (W4 m ρ c)).trans ?_
  rw [W4_v3, W4_v6, W4_v16]
theorem W5_v28 : W5 m ρ c (Proc.devRef .tc main_v28) = shapeCast S1x64 (m ((c : Thread nD τ).loc main_arg3)) shapeCasts_S64_S1x64 := by
  refine (Host.h1_v28 (W4 m ρ c)).trans ?_
  rw [W4_arg3]
theorem W5_v15 : W5 m ρ c (Proc.devRef .tc main_v15) = Host.dinvCol (Host.dstW (m ((c : Thread nD τ).loc main_arg1))) := (Host.h1_v15 (W4 m ρ c)).trans (W4_v15 m ρ c)
theorem W5_v3 : W5 m ρ c (Proc.devRef .tc main_v3) = Host.srcW (m ((c : Thread nD τ).loc main_arg1)) := (Host.h1_v3 (W4 m ρ c)).trans (W4_v3 m ρ c)
theorem W5_v6 : W5 m ρ c (Proc.devRef .tc main_v6) = Host.dstW (m ((c : Thread nD τ).loc main_arg1)) := (Host.h1_v6 (W4 m ρ c)).trans (W4_v6 m ρ c)
theorem W5_arg4 : W5 m ρ c (Proc.devRef .tc main_arg4) = m ((c : Thread nD τ).loc main_arg4) := (Host.h1_arg4 (W4 m ρ c)).trans (W4_arg4 m ρ c)
theorem W5_arg5 : W5 m ρ c (Proc.devRef .tc main_arg5) = m ((c : Thread nD τ).loc main_arg5) := (Host.h1_arg5 (W4 m ρ c)).trans (W4_arg5 m ρ c)
theorem W5_arg6 : W5 m ρ c (Proc.devRef .tc main_arg6) = m ((c : Thread nD τ).loc main_arg6) := (Host.h1_arg6 (W4 m ρ c)).trans (W4_arg6 m ρ c)
theorem W5_arg7 : W5 m ρ c (Proc.devRef .tc main_arg7) = m ((c : Thread nD τ).loc main_arg7) := (Host.h1_arg7 (W4 m ρ c)).trans (W4_arg7 m ρ c)

/-! ## Region 1's exit -/

theorem W6_v29 : W6 m ρ c (Proc.devRef .tc main_v29)
    = KMath.stage2 (m ((c : Thread nD τ).loc main_arg1)) (m ((c : Thread nD τ).loc main_arg0)) (m ((c : Thread nD τ).loc main_arg2)) (m ((c : Thread nD τ).loc main_arg3)) (m ((c : Thread nD τ).loc main_arg4)) := by
  refine (W6_arr m ρ c 4).trans ((Reg1.arr_eq (V5 m ρ) c).trans ?_)
  show Reg1.denseArr (W5 m ρ c (Proc.devRef .tc main_v27)) (W5 m ρ c (Proc.devRef .tc main_v15)) (W5 m ρ c (Proc.devRef .tc main_v28)) (W5 m ρ c (Proc.devRef .tc main_arg4)) = _
  rw [W5_v27, W5_v15, W5_v28, W5_arg4]
  rfl
theorem W6_v15 : W6 m ρ c (Proc.devRef .tc main_v15) = Host.dinvCol (Host.dstW (m ((c : Thread nD τ).loc main_arg1))) :=
  ((W6_arr m ρ c 1).trans (((dat1 (V5 m ρ) c).arrAt_in 1 rfl _).trans (A_eq1 (V5 m ρ) c 1))).trans (W5_v15 m ρ c)
theorem W6_v3 : W6 m ρ c (Proc.devRef .tc main_v3) = Host.srcW (m ((c : Thread nD τ).loc main_arg1)) := (W6_of_ne m ρ c main_v3 (by decide)).trans (W5_v3 m ρ c)
theorem W6_v6 : W6 m ρ c (Proc.devRef .tc main_v6) = Host.dstW (m ((c : Thread nD τ).loc main_arg1)) := (W6_of_ne m ρ c main_v6 (by decide)).trans (W5_v6 m ρ c)
theorem W6_arg5 : W6 m ρ c (Proc.devRef .tc main_arg5) = m ((c : Thread nD τ).loc main_arg5) := (W6_of_ne m ρ c main_arg5 (by decide)).trans (W5_arg5 m ρ c)
theorem W6_arg6 : W6 m ρ c (Proc.devRef .tc main_arg6) = m ((c : Thread nD τ).loc main_arg6) := (W6_of_ne m ρ c main_arg6 (by decide)).trans (W5_arg6 m ρ c)
theorem W6_arg7 : W6 m ρ c (Proc.devRef .tc main_arg7) = m ((c : Thread nD τ).loc main_arg7) := (W6_of_ne m ρ c main_arg7 (by decide)).trans (W5_arg7 m ρ c)

/-! ## Region 2's entry -/

theorem W7_v40 : W7 m ρ c (Proc.devRef .tc main_v40)
    = Host.agg32 (Host.srcW (m ((c : Thread nD τ).loc main_arg1))) (Host.dstW (m ((c : Thread nD τ).loc main_arg1)))
        (KMath.stage2 (m ((c : Thread nD τ).loc main_arg1)) (m ((c : Thread nD τ).loc main_arg0)) (m ((c : Thread nD τ).loc main_arg2)) (m ((c : Thread nD τ).loc main_arg3)) (m ((c : Thread nD τ).loc main_arg4))) := by
  refine (Host.h2_v40 (W6 m ρ c)).trans ?_
  rw [W6_v3, W6_v6, W6_v29]
theorem W7_v41 : W7 m ρ c (Proc.devRef .tc main_v41) = shapeCast S1x32 (m ((c : Thread nD τ).loc main_arg5)) shapeCasts_S32_S1x32 := by
  refine (Host.h2_v41 (W6 m ρ c)).trans ?_
  rw [W6_arg5]
theorem W7_v42 : W7 m ρ c (Proc.devRef .tc main_v42) = shapeCast S1x1 (m ((c : Thread nD τ).loc main_arg7)) shapeCasts_S1_S1x1 := by
  refine (Host.h2_v42 (W6 m ρ c)).trans ?_
  rw [W6_arg7]
theorem W7_v15 : W7 m ρ c (Proc.devRef .tc main_v15) = Host.dinvCol (Host.dstW (m ((c : Thread nD τ).loc main_arg1))) := (Host.h2_v15 (W6 m ρ c)).trans (W6_v15 m ρ c)
theorem W7_arg6 : W7 m ρ c (Proc.devRef .tc main_arg6) = m ((c : Thread nD τ).loc main_arg6) := (Host.h2_arg6 (W6 m ρ c)).trans (W6_arg6 m ρ c)

/-! ## The last boundary: the result -/

theorem W8_v43 : W8 m ρ c (Proc.devRef .tc main_v43)
    = KMath.result (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 5).trans ((Reg2.arr_eq (V7 m ρ) c).trans ?_)
  show Reg2.denseArr (W7 m ρ c (Proc.devRef .tc main_v40)) (W7 m ρ c (Proc.devRef .tc main_v15)) (W7 m ρ c (Proc.devRef .tc main_v41)) (W7 m ρ c (Proc.devRef .tc main_arg6)) (W7 m ρ c (Proc.devRef .tc main_v42)) = _
  rw [W7_v40, W7_v15, W7_v41, W7_arg6, W7_v42]
  rfl

/-! ## The run -/

/-- Every weakly fair execution of the kernel program terminates with the result buffer at the composed function of the
    arguments, and the arguments unchanged. -/
theorem run : θ_run defs (onTc (τ := τ) (main (F := Ideal))) ⟨m, fun _ => 0, ρ⟩ (fun r => ∀ c : Dev nD,
      r.2.mem ((c.tc : Thread nD τ).loc main_v43)
        = KMath.result (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W8_v43 m ρ c), (h c).2⟩) (GenP.frame_result m ρ)

end Cert.KernelIdeal.Chain

end
-- ==== Proof.RefValue.lean ====
/-
  The reference program's result, entry by entry, is the PER-MESSAGE network.

  The reference forms the source and target words of the messages and the coefficient vector as the kernel program does
  (the same host operations on the edge array). In each layer it multiplies the features by the weights, gathers for
  every message the product's row at the message's source node, scales it by the product of the coefficients of the
  message's source and target, adds the scaled rows up at the target words from zero, adds the bias and rectifies. The
  head is a dense product plus its bias. Reading each stage at an index, one stage at a time, gives the per-message layer
  twice and then the head.
-/
import proofs.«141033_j88948772700968_2_alg».proof.Proof.RefRead
import proofs.«141033_j88948772700968_2_alg».proof.Proof.Net
import proofs.«141033_j88948772700968_2_alg».proof.Proof.LibGcnPieces
import proofs.«141033_j88948772700968_2_alg».proof.Proof.LibPlainDot
import proofs.«141033_j88948772700968_2_alg».proof.Proof.LibHostKeepdims

set_option maxRecDepth 16384

noncomputable section

open scoped BigOperators

namespace Cert.ReferenceIdeal.RefValue

open Cert.ReferenceIdeal Cert.ReferenceIdeal.Gen Cert.ReferenceIdeal.ReadP Idealize.ShloMosaic Idealize.ShloMosaic.ValueIdx Cert.GcnRead

variable (x0 : FVec Ideal S100000x128 .f32) (x1 : IVec S2x600000 32) (x2 : FVec Ideal S128x64 .f32) (x3 : FVec Ideal S64 .f32)
  (x4 : FVec Ideal S64x32 .f32) (x5 : FVec Ideal S32 .f32) (x6 : FVec Ideal S32x1 .f32) (x7 : FVec Ideal S1 .f32)

/-- The first dense product at (R, c). -/
theorem dense7 (R : Fin 100000) (c : Fin 64) :
    val_main_v7 (F := Ideal) x0 x2 (ix2 R c) = ∑ k : Fin 128, x0 (ix2 R k) * x2 (ix2 k c) := by
  unfold val_main_v7
  exact PlainDot.dotGeneral_apply 100000 128 64 none _ x0 x2 R c

/-! ## Layer 1 -/

/-- The coefficient vector of layer 1 at a row. -/
theorem coef1 (R : Fin 100000) : val_main_v15 (F := Ideal) x1 (ix1 R) = coef (val_main_v6 (F := Ideal) x1) R := by
  unfold val_main_v15 val_main_v13 val_main_v14 val_main_v11 val_main_v12 val_main_v9 val_main_v10 val_main_v8 val_main_call0_v1 val_main_call0_v0 val_main_cst val_main_cst_0 val_main_cst_1 val_main_cst_2
  have hs : scatter_S100000_S700000x1_S700000_n_0_0_1
      = RowScatter.vecDims 100000 700000 scatter_S100000_S700000x1_S700000_n_0_0_1_wf := rfl
  rw [hs]
  exact coefVec_apply scatter_S100000_S700000x1_S700000_n_0_0_1_wf bcast_S700000_S700000x1_0 bcast_S_S100000 bcast_S_S700000 (val_main_v6 (F := Ideal) x1) R

/-- The coefficient of a message's source node. -/
theorem gathS1 (e : Fin 700000) : val_main_v22 (F := Ideal) x1 (ix1 e) = coef (val_main_v6 (F := Ideal) x1) (Net.nodeOf (val_main_v3 (F := Ideal) x1) e) := by
  unfold val_main_v22 val_main_v21 val_main_v20 val_main_v17 val_main_v19
  have hg : gather_S100000_S700000x1_S700000_n_0_n_n_0_1_1
      = RowGather.vecDims 100000 700000 gather_S100000_S700000x1_S700000_n_0_n_n_0_1_1_wf := rfl
  rw [hg]
  refine (gatherVecWrapped_apply Net.hN _ bcast_S700000_S700000x1_0 (val_main_v15 (F := Ideal) x1) (val_main_v3 (F := Ideal) x1) (val_main_v16 (F := Ideal)) (val_main_v18 (F := Ideal)) e).trans ?_
  exact coef1 x1 (Net.nodeOf (val_main_v3 (F := Ideal) x1) e)

/-- The coefficient of a message's target word, read as the gather reads it. -/
theorem gathD1 (e : Fin 700000) : val_main_v29 (F := Ideal) x1 (ix1 e) = coef (val_main_v6 (F := Ideal) x1) (Net.nodeOf (val_main_v6 (F := Ideal) x1) e) := by
  unfold val_main_v29 val_main_v28 val_main_v27 val_main_v24 val_main_v26
  have hg : gather_S100000_S700000x1_S700000_n_0_n_n_0_1_1
      = RowGather.vecDims 100000 700000 gather_S100000_S700000x1_S700000_n_0_n_n_0_1_1_wf := rfl
  rw [hg]
  refine (gatherVecWrapped_apply Net.hN _ bcast_S700000_S700000x1_0 (val_main_v15 (F := Ideal) x1) (val_main_v6 (F := Ideal) x1) (val_main_v23 (F := Ideal)) (val_main_v25 (F := Ideal)) e).trans ?_
  exact coef1 x1 (Net.nodeOf (val_main_v6 (F := Ideal) x1) e)

/-- The normalization attached to a message: the product of the two coefficients. -/
theorem norm1 (e : Fin 700000) :
    val_main_v30 (F := Ideal) x1 (ix1 e) = coef (val_main_v6 (F := Ideal) x1) (Net.nodeOf (val_main_v3 (F := Ideal) x1) e) * coef (val_main_v6 (F := Ideal) x1) (Net.nodeOf (val_main_v6 (F := Ideal) x1) e) := by
  unfold val_main_v30
  refine (mulf_apply _ _ _).trans ?_
  rw [gathS1, gathD1]

/-- The normalization spread over the columns. -/
theorem normCols1 (e : Fin 700000) (j : Fin 64) :
    val_main_v39 (F := Ideal) x1 (ix2 e j) = coef (val_main_v6 (F := Ideal) x1) (Net.nodeOf (val_main_v3 (F := Ideal) x1) e) * coef (val_main_v6 (F := Ideal) x1) (Net.nodeOf (val_main_v6 (F := Ideal) x1) e) := by
  unfold val_main_v39 val_main_v38
  exact (LibHostKeepdims.bcast_a1_ab_apply bcast_S700000x1_S700000x64_0_1 _ e j).trans
    ((LibHostKeepdims.bcast_a_a1_apply bcast_S700000_S700000x1_0 _ e (0 : Fin 1)).trans (norm1 x1 e))

/-- The dense product gathered at a message's source node. -/
theorem gathF1 (e : Fin 700000) (j : Fin 64) :
    val_main_v37 (F := Ideal) x0 x1 x2 (ix2 e j) = ∑ k : Fin 128, (fun (R : Fin 100000) (k : Fin 128) => x0 (ix2 R k)) (Net.nodeOf (val_main_v3 (F := Ideal) x1) e) k * (fun (k : Fin 128) (c : Fin 64) => x2 (ix2 k c)) k j := by
  unfold val_main_v37 val_main_v36 val_main_v35 val_main_v32 val_main_v34
  have hg : gather_S100000x64_S700000x1_S700000x64_1_0_n_n_0_1_164 = RowGather.rowDims 100000 700000 64 gather_S100000x64_S700000x1_S700000x64_1_0_n_n_0_1_164_wf := rfl
  rw [hg]
  refine (gatherWrapped_apply Net.hN _ bcast_S700000_S700000x1_0 (val_main_v7 (F := Ideal) x0 x2) (val_main_v3 (F := Ideal) x1) (val_main_v31 (F := Ideal)) (val_main_v33 (F := Ideal)) e j).trans ?_
  exact dense7 x0 x2 (Net.nodeOf (val_main_v3 (F := Ideal) x1) e) j

/-- One message, scaled. -/
theorem msg1 (e : Fin 700000) (j : Fin 64) :
    val_main_v40 (F := Ideal) x0 x1 x2 (ix2 e j)
      = (∑ k : Fin 128, (fun (R : Fin 100000) (k : Fin 128) => x0 (ix2 R k)) (Net.nodeOf (val_main_v3 (F := Ideal) x1) e) k * (fun (k : Fin 128) (c : Fin 64) => x2 (ix2 k c)) k j) * (coef (val_main_v6 (F := Ideal) x1) (Net.nodeOf (val_main_v3 (F := Ideal) x1) e) * coef (val_main_v6 (F := Ideal) x1) (Net.nodeOf (val_main_v6 (F := Ideal) x1) e)) := by
  unfold val_main_v40
  refine (mulf_apply _ _ _).trans ?_
  rw [gathF1, normCols1]

/-- The messages added up at their target words, from zero. -/
theorem agg1 (i : Fin 100000) (j : Fin 64) :
    val_main_v43 (F := Ideal) x0 x1 x2 (ix2 i j) = 0 + ∑ e ∈ Net.into (val_main_v6 (F := Ideal) x1) i, val_main_v40 (F := Ideal) x0 x1 x2 (ix2 e j) := by
  unfold val_main_v43 val_main_v41 val_main_v42 val_main_cst_8 Net.into
  have hs : scatter_S100000x64_S700000x1_S700000x64_1_0_0_1 = RowScatter.rowDims 100000 700000 64 scatter_S100000x64_S700000x1_S700000x64_1_0_0_1_wf := rfl
  rw [hs]
  exact scatterZero_apply _ bcast_S700000_S700000x1_0 bcast_S_S100000x64 (val_main_v6 (F := Ideal) x1) (val_main_v40 (F := Ideal) x0 x1 x2) i j

/-- LAYER 1 of the reference is the per-message layer. -/
theorem layer1 (i : Fin 100000) (j : Fin 64) :
    val_main_v47 (F := Ideal) x0 x1 x2 x3 (ix2 i j) = Net.messageLayer (val_main_v3 (F := Ideal) x1) (val_main_v6 (F := Ideal) x1) (fun (R : Fin 100000) (k : Fin 128) => x0 (ix2 R k)) (fun (k : Fin 128) (c : Fin 64) => x2 (ix2 k c)) (fun c => x3 (ix1 c)) i j := by
  unfold val_main_v47 val_main_v46
  refine (maximumf_apply _ _ _).trans ?_
  rw [addf_apply, agg1, val_main_v45_apply, val_main_v44_apply, val_main_call1_v0_apply]
  have hb : x3 (idx_main_v44 (idx_main_v45 (ix2 i j))) = x3 (ix1 j) :=
    congrArg x3 (funext fun a => Fin.ext (by match a with | ⟨0, _⟩ => rfl))
  have hzero : val_main_call1_cst (F := Ideal) (idx_main_call1_v0 (ix2 i j)) = (0 : EReal) := Ideal.ofBits_zero_f32
  rw [hb, hzero]
  unfold Net.messageLayer
  refine congrArg (fun u : EReal => max (u + x3 (ix1 j)) 0) ?_
  exact congrArg (fun u : EReal => 0 + u) (Finset.sum_congr rfl fun e _ => msg1 x0 x1 x2 e j)

/-- The second dense product at (R, c): the first layer's row times the weights. -/
theorem dense48 (R : Fin 100000) (c : Fin 32) :
    val_main_v48 (F := Ideal) x0 x1 x2 x3 x4 (ix2 R c) = ∑ k : Fin 64, (Net.messageLayer (val_main_v3 (F := Ideal) x1) (val_main_v6 (F := Ideal) x1) (fun (R : Fin 100000) (k : Fin 128) => x0 (ix2 R k)) (fun (k : Fin 128) (c : Fin 64) => x2 (ix2 k c)) (fun c => x3 (ix1 c))) R k * x4 (ix2 k c) := by
  unfold val_main_v48
  refine (PlainDot.dotGeneral_apply 100000 64 32 none _ (val_main_v47 (F := Ideal) x0 x1 x2 x3) x4 R c).trans ?_
  exact Finset.sum_congr rfl fun k _ => by rw [layer1]

/-! ## Layer 2 -/

/-- The coefficient vector of layer 2 at a row. -/
theorem coef2 (R : Fin 100000) : val_main_v56 (F := Ideal) x1 (ix1 R) = coef (val_main_v6 (F := Ideal) x1) R := by
  unfold val_main_v56 val_main_v54 val_main_v55 val_main_v52 val_main_v53 val_main_v50 val_main_v51 val_main_v49 val_main_call2_v1 val_main_call2_v0 val_main_cst_9 val_main_cst_10 val_main_cst_11 val_main_cst_12
  have hs : scatter_S100000_S700000x1_S700000_n_0_0_1
      = RowScatter.vecDims 100000 700000 scatter_S100000_S700000x1_S700000_n_0_0_1_wf := rfl
  rw [hs]
  exact coefVec_apply scatter_S100000_S700000x1_S700000_n_0_0_1_wf bcast_S700000_S700000x1_0 bcast_S_S100000 bcast_S_S700000 (val_main_v6 (F := Ideal) x1) R

/-- The coefficient of a message's source node. -/
theorem gathS2 (e : Fin 700000) : val_main_v63 (F := Ideal) x1 (ix1 e) = coef (val_main_v6 (F := Ideal) x1) (Net.nodeOf (val_main_v3 (F := Ideal) x1) e) := by
  unfold val_main_v63 val_main_v62 val_main_v61 val_main_v58 val_main_v60
  have hg : gather_S100000_S700000x1_S700000_n_0_n_n_0_1_1
      = RowGather.vecDims 100000 700000 gather_S100000_S700000x1_S700000_n_0_n_n_0_1_1_wf := rfl
  rw [hg]
  refine (gatherVecWrapped_apply Net.hN _ bcast_S700000_S700000x1_0 (val_main_v56 (F := Ideal) x1) (val_main_v3 (F := Ideal) x1) (val_main_v57 (F := Ideal)) (val_main_v59 (F := Ideal)) e).trans ?_
  exact coef2 x1 (Net.nodeOf (val_main_v3 (F := Ideal) x1) e)

/-- The coefficient of a message's target word, read as the gather reads it. -/
theorem gathD2 (e : Fin 700000) : val_main_v70 (F := Ideal) x1 (ix1 e) = coef (val_main_v6 (F := Ideal) x1) (Net.nodeOf (val_main_v6 (F := Ideal) x1) e) := by
  unfold val_main_v70 val_main_v69 val_main_v68 val_main_v65 val_main_v67
  have hg : gather_S100000_S700000x1_S700000_n_0_n_n_0_1_1
      = RowGather.vecDims 100000 700000 gather_S100000_S700000x1_S700000_n_0_n_n_0_1_1_wf := rfl
  rw [hg]
  refine (gatherVecWrapped_apply Net.hN _ bcast_S700000_S700000x1_0 (val_main_v56 (F := Ideal) x1) (val_main_v6 (F := Ideal) x1) (val_main_v64 (F := Ideal)) (val_main_v66 (F := Ideal)) e).trans ?_
  exact coef2 x1 (Net.nodeOf (val_main_v6 (F := Ideal) x1) e)

/-- The normalization attached to a message: the product of the two coefficients. -/
theorem norm2 (e : Fin 700000) :
    val_main_v71 (F := Ideal) x1 (ix1 e) = coef (val_main_v6 (F := Ideal) x1) (Net.nodeOf (val_main_v3 (F := Ideal) x1) e) * coef (val_main_v6 (F := Ideal) x1) (Net.nodeOf (val_main_v6 (F := Ideal) x1) e) := by
  unfold val_main_v71
  refine (mulf_apply _ _ _).trans ?_
  rw [gathS2, gathD2]

/-- The normalization spread over the columns. -/
theorem normCols2 (e : Fin 700000) (j : Fin 32) :
    val_main_v80 (F := Ideal) x1 (ix2 e j) = coef (val_main_v6 (F := Ideal) x1) (Net.nodeOf (val_main_v3 (F := Ideal) x1) e) * coef (val_main_v6 (F := Ideal) x1) (Net.nodeOf (val_main_v6 (F := Ideal) x1) e) := by
  unfold val_main_v80 val_main_v79
  exact (LibHostKeepdims.bcast_a1_ab_apply bcast_S700000x1_S700000x32_0_1 _ e j).trans
    ((LibHostKeepdims.bcast_a_a1_apply bcast_S700000_S700000x1_0 _ e (0 : Fin 1)).trans (norm2 x1 e))

/-- The dense product gathered at a message's source node. -/
theorem gathF2 (e : Fin 700000) (j : Fin 32) :
    val_main_v78 (F := Ideal) x0 x1 x2 x3 x4 (ix2 e j) = ∑ k : Fin 64, (Net.messageLayer (val_main_v3 (F := Ideal) x1) (val_main_v6 (F := Ideal) x1) (fun (R : Fin 100000) (k : Fin 128) => x0 (ix2 R k)) (fun (k : Fin 128) (c : Fin 64) => x2 (ix2 k c)) (fun c => x3 (ix1 c))) (Net.nodeOf (val_main_v3 (F := Ideal) x1) e) k * (fun (k : Fin 64) (c : Fin 32) => x4 (ix2 k c)) k j := by
  unfold val_main_v78 val_main_v77 val_main_v76 val_main_v73 val_main_v75
  have hg : gather_S100000x32_S700000x1_S700000x32_1_0_n_n_0_1_132 = RowGather.rowDims 100000 700000 32 gather_S100000x32_S700000x1_S700000x32_1_0_n_n_0_1_132_wf := rfl
  rw [hg]
  refine (gatherWrapped_apply Net.hN _ bcast_S700000_S700000x1_0 (val_main_v48 (F := Ideal) x0 x1 x2 x3 x4) (val_main_v3 (F := Ideal) x1) (val_main_v72 (F := Ideal)) (val_main_v74 (F := Ideal)) e j).trans ?_
  exact dense48 x0 x1 x2 x3 x4 (Net.nodeOf (val_main_v3 (F := Ideal) x1) e) j

/-- One message, scaled. -/
theorem msg2 (e : Fin 700000) (j : Fin 32) :
    val_main_v81 (F := Ideal) x0 x1 x2 x3 x4 (ix2 e j)
      = (∑ k : Fin 64, (Net.messageLayer (val_main_v3 (F := Ideal) x1) (val_main_v6 (F := Ideal) x1) (fun (R : Fin 100000) (k : Fin 128) => x0 (ix2 R k)) (fun (k : Fin 128) (c : Fin 64) => x2 (ix2 k c)) (fun c => x3 (ix1 c))) (Net.nodeOf (val_main_v3 (F := Ideal) x1) e) k * (fun (k : Fin 64) (c : Fin 32) => x4 (ix2 k c)) k j) * (coef (val_main_v6 (F := Ideal) x1) (Net.nodeOf (val_main_v3 (F := Ideal) x1) e) * coef (val_main_v6 (F := Ideal) x1) (Net.nodeOf (val_main_v6 (F := Ideal) x1) e)) := by
  unfold val_main_v81
  refine (mulf_apply _ _ _).trans ?_
  rw [gathF2, normCols2]

/-- The messages added up at their target words, from zero. -/
theorem agg2 (i : Fin 100000) (j : Fin 32) :
    val_main_v84 (F := Ideal) x0 x1 x2 x3 x4 (ix2 i j) = 0 + ∑ e ∈ Net.into (val_main_v6 (F := Ideal) x1) i, val_main_v81 (F := Ideal) x0 x1 x2 x3 x4 (ix2 e j) := by
  unfold val_main_v84 val_main_v82 val_main_v83 val_main_cst_19 Net.into
  have hs : scatter_S100000x32_S700000x1_S700000x32_1_0_0_1 = RowScatter.rowDims 100000 700000 32 scatter_S100000x32_S700000x1_S700000x32_1_0_0_1_wf := rfl
  rw [hs]
  exact scatterZero_apply _ bcast_S700000_S700000x1_0 bcast_S_S100000x32 (val_main_v6 (F := Ideal) x1) (val_main_v81 (F := Ideal) x0 x1 x2 x3 x4) i j

/-- LAYER 2 of the reference is the per-message layer. -/
theorem layer2 (i : Fin 100000) (j : Fin 32) :
    val_main_v88 (F := Ideal) x0 x1 x2 x3 x4 x5 (ix2 i j) = Net.messageLayer (val_main_v3 (F := Ideal) x1) (val_main_v6 (F := Ideal) x1) (Net.messageLayer (val_main_v3 (F := Ideal) x1) (val_main_v6 (F := Ideal) x1) (fun (R : Fin 100000) (k : Fin 128) => x0 (ix2 R k)) (fun (k : Fin 128) (c : Fin 64) => x2 (ix2 k c)) (fun c => x3 (ix1 c))) (fun (k : Fin 64) (c : Fin 32) => x4 (ix2 k c)) (fun c => x5 (ix1 c)) i j := by
  unfold val_main_v88 val_main_v87
  refine (maximumf_apply _ _ _).trans ?_
  rw [addf_apply, agg2, val_main_v86_apply, val_main_v85_apply, val_main_call3_v0_apply]
  have hb : x5 (idx_main_v85 (idx_main_v86 (ix2 i j))) = x5 (ix1 j) :=
    congrArg x5 (funext fun a => Fin.ext (by match a with | ⟨0, _⟩ => rfl))
  have hzero : val_main_call3_cst (F := Ideal) (idx_main_call3_v0 (ix2 i j)) = (0 : EReal) := Ideal.ofBits_zero_f32
  rw [hb, hzero]
  unfold Net.messageLayer
  refine congrArg (fun u : EReal => max (u + x5 (ix1 j)) 0) ?_
  exact congrArg (fun u : EReal => 0 + u) (Finset.sum_congr rfl fun e _ => msg2 x0 x1 x2 x3 x4 e j)

/-! ## The head -/

/-- THE REFERENCE'S RESULT at row i is the per-message network at i. -/
theorem result_apply (i : Fin 100000) (u : Fin 1) :
    val_main_v92 (F := Ideal) x0 x1 x2 x3 x4 x5 x6 x7 (ix2 i u)
      = Net.messageNet (val_main_v3 (F := Ideal) x1) (val_main_v6 (F := Ideal) x1) (fun (R : Fin 100000) (k : Fin 128) => x0 (ix2 R k)) (fun (k : Fin 128) (c : Fin 64) => x2 (ix2 k c)) (fun c => x3 (ix1 c)) (fun (k : Fin 64) (c : Fin 32) => x4 (ix2 k c)) (fun c => x5 (ix1 c))
          (fun k => x6 (ix2 k (0 : Fin 1))) (x7 (ix1 (0 : Fin 1))) i := by
  have hu : u = 0 := Subsingleton.elim _ _
  subst hu
  unfold val_main_v92
  refine (addf_apply _ _ _).trans ?_
  rw [val_main_v91_apply, val_main_v90_apply]
  have hb : x7 (idx_main_v90 (idx_main_v91 (ix2 i (0 : Fin 1)))) = x7 (ix1 (0 : Fin 1)) :=
    congrArg x7 (funext fun a => Fin.ext (by match a with | ⟨0, _⟩ => rfl))
  rw [hb]
  unfold val_main_v89 Net.messageNet Net.head
  refine congrArg (fun v : EReal => v + x7 (ix1 (0 : Fin 1))) ?_
  refine (PlainDot.dotGeneral_apply 100000 32 1 none _ (val_main_v88 (F := Ideal) x0 x1 x2 x3 x4 x5) x6 i (0 : Fin 1)).trans ?_
  exact Finset.sum_congr rfl fun k _ => by rw [layer2]

end Cert.ReferenceIdeal.RefValue

end
-- ==== Proof.lean ====
/-
  A two-layer graph convolution with a linear head: a tiled program against the plain one, on the extended reals.

  Both programs read node features x, an edge array, two weight matrices with biases and a head. Both add one self-loop per
  node to the edges, count the messages delivered to each node and take the coefficient of a node to be the inverse square
  root of a positive count, zero otherwise. The plain program attaches to every message the product of the coefficients of
  its source and of its target; the tiled program multiplies each row of a dense product by the row's coefficient before
  the messages are formed, and the sum of the delivered messages by the target's coefficient afterwards. A message
  delivered to node i has target i, and a coefficient is a nonnegative real, which goes through a finite sum of extended
  reals; so the two evaluations agree for arbitrary, possibly infinite, features and weights, and the precondition is not
  used. Format changes are the identity on the extended reals, and a product into a zero accumulator is the plain sum.

  The tiled program's three kernels each run over 25 blocks of 4000 rows; each leaves its result array at one function of
  the arrays it finds (the blocks cover the rows), the host operations between them are read one at a time, and the
  boundaries between the segments of the program are walked in order. The plain program's run is read one operation at a
  time. The three frames are the generated ones (the plain program's frame is its run with the result dropped), and the
  idealization rewrote nothing.
-/
import proofs.«141033_j88948772700968_2_alg».proof.Defs
import proofs.«141033_j88948772700968_2_alg».proof.Proof.Gen.Kernel
import proofs.«141033_j88948772700968_2_alg».proof.Proof.Gen.Kernel.Skeleton
import proofs.«141033_j88948772700968_2_alg».proof.Proof.Gen.Kernel.Launch
import proofs.«141033_j88948772700968_2_alg».proof.Proof.Gen.Kernel.Points
import proofs.«141033_j88948772700968_2_alg».proof.Proof.Gen.Kernel.Frame
import proofs.«141033_j88948772700968_2_alg».proof.Proof.Gen.KernelIdeal
import proofs.«141033_j88948772700968_2_alg».proof.Proof.Gen.KernelIdeal.Skeleton
import proofs.«141033_j88948772700968_2_alg».proof.Proof.Gen.KernelIdeal.Launch
import proofs.«141033_j88948772700968_2_alg».proof.Proof.Gen.KernelIdeal.Points
import proofs.«141033_j88948772700968_2_alg».proof.Proof.Gen.KernelIdeal.Frame
import proofs.«141033_j88948772700968_2_alg».proof.Proof.Gen.ReferenceIdeal
import proofs.«141033_j88948772700968_2_alg».proof.Proof.RefRun
import proofs.«141033_j88948772700968_2_alg».proof.Proof.RefRead
import proofs.«141033_j88948772700968_2_alg».proof.Proof.Gen.Pre_finite_inputs
import proofs.«141033_j88948772700968_2_alg».proof.Proof.Net
import proofs.«141033_j88948772700968_2_alg».proof.Proof.KChain
import proofs.«141033_j88948772700968_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

/-- The two programs form the source words of the messages by the same operations on the edge array. -/
theorem src_words (x1 : IVec Cert.KernelIdeal.S2x600000 32) :
    Cert.ReferenceIdeal.ReadP.val_main_v3 (F := Ideal) x1 = Cert.KernelIdeal.Host.srcW x1 := rfl

/-- The two programs form the target words of the messages by the same operations on the edge array. -/
theorem dst_words (x1 : IVec Cert.KernelIdeal.S2x600000 32) :
    Cert.ReferenceIdeal.ReadP.val_main_v6 (F := Ideal) x1 = Cert.KernelIdeal.Host.dstW x1 := rfl

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- The tiled program ends at the folded network of its arguments, the plain program at the per-message network of
    arguments that agree; the two networks are one function. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.ReadP.val_main_v92_eq, h0, h1, h2, h3, h4, h5, h6, h7]
  funext i
  obtain ⟨R, u, rfl⟩ : ∃ (R : Fin 100000) (u : Fin 1), i = ix2 R u := ⟨i 0, i 1, eq_ix2 i⟩
  rw [Cert.ReferenceIdeal.RefValue.result_apply, src_words, dst_words]
  refine Eq.trans ?_ (Cert.KernelIdeal.KMath.result_apply (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) R u).symm
  rw [Cert.Net.foldedNet_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
